-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x4096x2x2 : Shape := ⟨4, ![4096, 4096, 2, 2]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x4096x2x2 : S_.BroadcastsInDim S4096x4096x2x2 (![] : Fin 0 → Fin S4096x4096x2x2.rank)
  reducesTo_S4096x4096x2x2_S_d0_1_2_3 : S4096x4096x2x2.ReducesTo [0, 1, 2, 3] S_

variable [Facts]

def fn {F : FTy → Type} [FloatOps F] (main_arg0 : FVec F S4096x4096x2 .f32) (main_arg1 : FVec F S4096x4096x2x2 .f32) (main_arg2 : FVec F S4096x4096x2 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x4096x2x2 .f32 := Host.absf main_arg1
  let main_cst_0 : FVec F S_ .f32 := constant S_ .f32 0x7F800000#32
  let main_v5 : FVec F S4096x4096x2x2 .f32 := broadcastInDim S4096x4096x2x2 ![] bcast_S_S4096x4096x2x2 main_cst_0
  let main_v6 : IVec S4096x4096x2x2 1 := cmpf .olt main_v4 main_v5
  let main_c_1 : IVec S_ 1 := constantI S_ 1 1#1
  let main_v7 : IVec S_ 1 := (fun x v => Host.reduce IntOp.andi x v reducesTo_S4096x4096x2x2_S_d0_1_2_3 h_S_) main_v6 main_c_1
  let main_v8 : IVec S_ 1 := andi main_v3 main_v7
  let main_v9 : FVec F S4096x4096x2 .f32 := Host.absf main_arg2
  let main_cst_2 : FVec F S_ .f32 := constant S_ .f32 0x7F800000#32
  let main_v10 : FVec F S4096x4096x2 .f32 := broadcastInDim S4096x4096x2 ![] bcast_S_S4096x4096x2 main_cst_2
  let main_v11 : IVec S4096x4096x2 1 := cmpf .olt main_v9 main_v10
  let main_c_3 : IVec S_ 1 := constantI S_ 1 1#1
  let main_v12 : IVec S_ 1 := (fun x v => Host.reduce IntOp.andi x v reducesTo_S4096x4096x2_S_d0_1_2 h_S_) main_v11 main_c_3
  let main_v13 : IVec S_ 1 := andi main_v8 main_v12
  main_v13
-- ==== Kernel.lean ====
abbrev S4096x4096x2 : Shape := ⟨3, ![4096, 4096, 2]⟩
abbrev S4096x4096x2x2 : Shape := ⟨4, ![4096, 4096, 2, 2]⟩
abbrev S4096x4096x1x1 : Shape := ⟨4, ![4096, 4096, 1, 1]⟩
abbrev S4096x4096 : Shape := ⟨2, ![4096, 4096]⟩
abbrev S4096x4096x1 : Shape := ⟨3, ![4096, 4096, 1]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S128 : Shape := ⟨1, ![128]⟩
abbrev S_ : Shape := ⟨0, ![]⟩

abbrev nBuf : Space → Nat
  | .hbm => 45
  | .vmem => 16
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x2x2, .f32⟩
  | .hbm, ⟨2, _⟩ => ⟨S4096x4096x2, .f32⟩
  | .hbm, ⟨3, _⟩ => ⟨S4096x4096x1x1, .f32⟩
  | .hbm, ⟨4, _⟩ => ⟨S4096x4096, .f32⟩
  | .hbm, ⟨5, _⟩ => ⟨S4096x4096x1x1, .f32⟩
  | .hbm, ⟨6, _⟩ => ⟨S4096x4096, .f32⟩
  | .hbm, ⟨7, _⟩ => ⟨S4096x4096x1x1, .f32⟩
  | .hbm, ⟨8, _⟩ => ⟨S4096x4096, .f32⟩
  | .hbm, ⟨9, _⟩ => ⟨S4096x4096x1, .f32⟩
  | .hbm, ⟨10, _⟩ => ⟨S4096x4096, .f32⟩
  | .hbm, ⟨11, _⟩ => ⟨S4096x4096x1, .f32⟩
  | .hbm, ⟨12, _⟩ => ⟨S4096x4096, .f32⟩
  | .hbm, ⟨13, _⟩ => ⟨S4096x4096x1, .f32⟩
  | .hbm, ⟨14, _⟩ => ⟨S4096x4096, .f32⟩
  | .hbm, ⟨15, _⟩ => ⟨S4096x4096x1, .f32⟩
  | .hbm, ⟨16, _⟩ => ⟨S4096x4096, .f32⟩
  | .hbm, ⟨17, _⟩ => ⟨S1x128, .f32⟩
  | .hbm, ⟨18, _⟩ => ⟨S128, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S1x128, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v131 : BitVec 1 := Scalar.cmpi .eq arg0 c7_i32
  let arg1 : BitVec 32 := BitVec.ofNat 32 (i 1).val
  let c7_i32_45 : BitVec 32 := 7#32
  let v132 : BitVec 1 := Scalar.cmpi .eq arg1 c7_i32_45
  let v133 : BitVec 1 := Scalar.andi v131 v132
  let v134 : BitVec 32 := Scalar.extui v133
  let c0_i32_46 : BitVec 32 := 0#32
  let v135 : BitVec 1 := Scalar.cmpi .ne v134 c0_i32_46
  v135

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  slices_S4096x4096x2x2_S4096x4096x1x1_0_0_0_0 : S4096x4096x2x2.Slices ![0, 0, 0, 0] S4096x4096x1x1
  shapeCasts_S4096x4096x1x1_S4096x4096 : S4096x4096x1x1.ShapeCasts S4096x4096
  slices_S4096x4096x2x2_S4096x4096x1x1_0_0_0_1 : S4096x4096x2x2.Slices ![0, 0, 0, 1] S4096x4096x1x1
  slices_S4096x4096x2x2_S4096x4096x1x1_0_0_1_1 : S4096x4096x2x2.Slices ![0, 0, 1, 1] S4096x4096x1x1
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inpos_S1x1_p0_0 : ∀ a, (![0, 0] : Fin 2 → Nat) a < S1x1.size a
  iota_S1x128_d1_w32 : S1x128.Iotas .tc 32 [1]
  shapeCasts_S1x128_S128 : S1x128.ShapeCasts S128
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  slices_S128_S1_4 : S128.Slices ![4] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)

variable [Facts₀]

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096x2 : Shape := ⟨3, ![4096, 4096, 2]⟩
abbrev S4096x4096x2x2 : Shape := ⟨4, ![4096, 4096, 2, 2]⟩
abbrev S4096x4096x1x1 : Shape := ⟨4, ![4096, 4096, 1, 1]⟩
abbrev S4096x4096 : Shape := ⟨2, ![4096, 4096]⟩
abbrev S_ : Shape := ⟨0, ![]⟩
abbrev S4096x4096x1 : Shape := ⟨3, ![4096, 4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x4096x2x2, .f32⟩
  | .hbm, ⟨2, _⟩ => ⟨S4096x4096x2, .f32⟩
  | .hbm, ⟨3, _⟩ => ⟨S4096x4096x1x1, .f32⟩
  | .hbm, ⟨4, _⟩ => ⟨S4096x4096, .f32⟩
  | .hbm, ⟨5, _⟩ => ⟨S4096x4096x1x1, .f32⟩
  | .hbm, ⟨6, _⟩ => ⟨S4096x4096, .f32⟩
  | .hbm, ⟨7, _⟩ => ⟨S4096x4096x1x1, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096x1, .f32⟩
  | .hbm, ⟨54, _⟩ => ⟨S4096x4096, .f32⟩
  | .hbm, ⟨55, _⟩ => ⟨S4096x4096x1, .f32⟩
  | .hbm, ⟨56, _⟩ => ⟨S4096x4096, .f32⟩
  | .hbm, ⟨57, _⟩ => ⟨S4096x4096, .f32⟩
  | .hbm, ⟨58, _⟩ => ⟨S4096x4096x1, .f32⟩
  | .hbm, ⟨59, _⟩ => ⟨S4096x4096, .f32⟩
  | .hbm, ⟨60, _⟩ => ⟨S4096x4096x1, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S_, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S4096x4096, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v25 : Ref sig .tc := ⟨.hbm, 40, rfl⟩
abbrev main_v26 : Ref sig .tc := ⟨.hbm, 41, rfl⟩
abbrev main_call3_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩

abbrev nD : Nat := 1
abbrev τ : Topo := Topo.v7x

variable {F : FTy → Type} [FloatOps F]

class Facts₀ : Prop where
  slices_S4096x4096x2x2_S4096x4096x1x1_0_0_0_0 : S4096x4096x2x2.Slices ![0, 0, 0, 0] S4096x4096x1x1
  shapeCasts_S4096x4096x1x1_S4096x4096 : S4096x4096x1x1.ShapeCasts S4096x4096
  slices_S4096x4096x2x2_S4096x4096x1x1_0_0_0_1 : S4096x4096x2x2.Slices ![0, 0, 0, 1] S4096x4096x1x1
  slices_S4096x4096x2x2_S4096x4096x1x1_0_0_1_1 : S4096x4096x2x2.Slices ![0, 0, 1, 1] S4096x4096x1x1
  bcast_S_S4096x4096 : S_.BroadcastsInDim S4096x4096 (![] : Fin 0 → Fin S4096x4096.rank)
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  reducesTo_S4096x4096_S_d0_1 : S4096x4096.ReducesTo [0, 1] S_
  h_S_ : 0 < S_.numel

variable [Facts₀]

class Facts : Prop extends Facts₀ where

variable [Facts]
-- ==== Proof.StarCases.lean ====
/-
  One grid point of the kernel, read as a value.

  The kernel keeps one row of 128 lanes as an accumulator across the 8 × 8 grid. At every point it computes, from the
  point's seven 512 × 512 input blocks, a row holding five block totals in lanes 0 … 4 and zero elsewhere (`contrib`),
  and adds it to the accumulator; the first point first resets the accumulator to the zero row; the last point also
  copies the accumulator into the output row. Each case's stores, as found by the run of the body, are read back here:

  * first point: the accumulator ends at  zero row + contribution  (`sout_A`);
  * a middle point: at  previous + contribution  (`sout_B`);
  * the last point: the same (`sout_C`), and the output row receives that very row (`out_C`).
-/
import proofs.«144680_j20478404067923_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StarValue

open Cert.KernelIdeal Cert.KernelIdeal.Gen

variable {F : FTy → Type} [FloatOps F]

theorem hz : (![0, 0] : Fin 2 → Nat) = fun _ => 0 := funext fun a => by fin_cases a <;> rfl

/-- What one grid point adds to the accumulator row, from its seven input blocks (a, b, d, px, py, tx, ty): the five
    block totals, each in its own lane. -/
def contrib (x0 x1 x2 x3 x4 x5 x6 : Vec F S512x512 .f32) : FVec F S1x128 .f32 :=
  k0_pay24 (k0_pay8 x0 x1 x2) (k0_pay9 x0 x1 x2)
    (k0_pay20 (k0_pay12 x0 x1 x2) (k0_pay13 x0 x1 x2) (k0_pay14 x0 x1 x2) (Scalar.ofBits .f32 0x3F800000#32) x3 x5 x4 x6)
    (k0_pay21 (k0_pay12 x0 x1 x2) (k0_pay13 x0 x1 x2) (k0_pay14 x0 x1 x2) (Scalar.ofBits .f32 0x3F800000#32) x3 x5 x4 x6)
    (k0_pay22 (k0_pay8 x0 x1 x2)) (k0_pay23 (k0_pay9 x0 x1 x2)) (Scalar.ofBits .f32 0x3F800000#32)

/-- A point that is neither first nor last leaves, in the accumulator holding xs0, xs0 plus the point's contribution. -/
theorem sout_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 x1 x2 x3 x4 x5 x6 : Vec F S512x512 .f32) (xs0 : Vec F S1x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (contrib x0 x1 x2 x3 x4 x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S512x512) hz, View.ld_unit_zero (S := S1x128) hz]
  rfl

/-- The last point leaves the same in the accumulator, -/
theorem sout_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 x1 x2 x3 x4 x5 x6 : Vec F S512x512 .f32) (xs0 : Vec F S1x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (contrib x0 x1 x2 x3 x4 x5 x6) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S512x512) hz, View.ld_unit_zero (S := S1x128) hz]
  rfl

/-- and copies the accumulator into the output row. -/
theorem out_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 x1 x2 x3 x4 x5 x6 : Vec F S512x512 .f32) (xs0 : Vec F S1x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (contrib x0 x1 x2 x3 x4 x5 x6) xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S1x128) _ hz]
  simp only [View.readAt_eq_ld, harg2.read_unread, harg3.read_unread, harg4.read_unread, harg5.read_unread, harg6.read_unread, harg7.read_unread, harg8.read_unread, harg10.read_unread, View.ld_unit_zero (S := S512x512) hz, View.ld_unit_zero (S := S1x128) hz]
  rfl

/-- The first point stores the zero row into the accumulator, reads it back, and leaves zero plus its contribution. -/
theorem sout_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 x1 x2 x3 x4 x5 x6 : Vec F S512x512 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (contrib x0 x1 x2 x3 x4 x5 x6) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg2.read_unread, harg3.read_unread, harg4.read_unread, harg5.read_unread, harg6.read_unread, harg7.read_unread, harg8.read_unread, harg10.read_unread, View.ld_unit_zero (S := S512x512) hz, View.ld_unit_zero (S := S1x128) hz]
  rfl

end Cert.KernelIdeal.StarValue

end
-- ==== Proof.StarAccum.lean ====
/-
  The accumulator over the grid, and the array the kernel's region leaves.

  After point n the accumulator row holds, in point order, zero row + contribution 0 + … + contribution n
  (`scratch_eq`, by induction on the point over the three cases of StarCases). The last point, 63, copies it into the
  output row (`out_last`); that point is the only one whose block is written back, and its block (0, 0) of the
  1 × 128 result array is the whole array, so the array ends holding that row (`final_out`).
-/
import proofs.«144680_j20478404067923_1_alg».proof.Proof.StarCases

noncomputable section

open Idealize.ShloMosaic Idealize.ShloMosaic.TcCoe Idealize.SL.Sem
open Idealize.ShloMosaic.Pipeline (Dat)

namespace Cert.KernelIdeal.StarValue

open Cert.KernelIdeal Cert.KernelIdeal.Gen

variable {F : FTy → Type} [FloatOps F]

variable (m : (ℓ : Loc nD τ sig) → Buf (Elt F) ℓ) (ρ : Dev nD → PrngReg)

/-- The contribution of grid point t: `contrib` of the seven blocks the point reads. -/
def contribAt (c : Dev nD) (t : Fin cfg0.N) : FVec F S1x128 .f32 :=
  contrib (iblk m c 0 t) (iblk m c 1 t) (iblk m c 2 t) (iblk m c 3 t) (iblk m c 4 t) (iblk m c 5 t) (iblk m c 6 t)

/-- The accumulator after point n, in point order: zero row + contribution 0, then + contribution n. -/
def acc (c : Dev nD) : (n : ℕ) → n < cfg0.N → Vec F S1x128 .f32
  | 0, h => k0_pay1 (contribAt m c ⟨0, h⟩) (k0_pay2 (F := F))
  | n + 1, h => k0_pay1 (contribAt m c ⟨n + 1, h⟩) (acc c n (Nat.lt_of_succ_lt h))

/-- What the accumulator holds after point n is that ordered sum: by induction on the point. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    rw [sout_A]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [sout_C]
      show k0_pay1 _ (outsAt0 m c n _).2 = k0_pay1 _ (acc m c n _)
      rw [scratch_eq c n]
      rfl
    · rw [outsAt0_B m c ⟨n + 1, h⟩ h0 h1]
      dsimp only
      rw [sout_B]
      show k0_pay1 _ (outsAt0 m c n _).2 = k0_pay1 _ (acc m c n _)
      rw [scratch_eq c n]
      rfl

/-- The last point, 63. -/
abbrev tLast : Fin cfg0.N := ⟨63, by rw [show cfg0.N = 64 from N_0]; decide⟩

/-- The result row: the accumulator after the last point. -/
abbrev result (c : Dev nD) : Buf (Elt F) ((c : Thread nD τ).loc main_v14) := acc m c 63 tLast.isLt

/-- The last point copies the accumulator into the output row. -/
theorem out_last (c : Dev nD) : (outsAt0 m c tLast.val tLast.isLt).1 = result m c := by
  have h0 : ¬(tLast : Fin cfg0.N).val % 64 = 0 := by decide
  have h1 : (tLast : Fin cfg0.N).val % 64 = 63 := by decide
  rw [outsAt0_C m c tLast h0 h1]
  dsimp only
  rw [out_C]
  show k0_pay1 _ (outsAt0 m c 62 _).2 = k0_pay1 _ (acc m c 62 _)
  rw [scratch_eq m c 62]
  rfl

/-- The one write-back, at the last point, writes the result row: block (0, 0) of the 1 × 128 array is the array. -/
theorem flushed_eq (c : Dev nD) (t : Fin cfg0.N) (hf : (cfg0.win 7).flush t = true) :
    (dats m 0 c).flushed 7 t = ((cfg0.win 7).blk t).view.read (Elt F) (result m c) := by
  have hN : cfg0.N = 64 := N_0
  have h63 : t.val = 63 := by have := (flush0_7 t).mp hf; have := t.isLt; omega
  obtain rfl : t = tLast := Fin.ext h63
  show (cfg0.win 7).cut (grid0.coords tLast) ((dats m 0 c).after 7 tLast) = _
  rw [after0_7, out_last]
  have hz' : (fun a => win0_7.index tLast a * main_v14.ty.shape.size a) = fun _ => 0 := funext fun a => by fin_cases a <;> decide
  exact (Memref.read_access_unit_zero (Elt F) main_v14 hz' (fun a => by rw [congrFun hz' a]; simp) (result m c)).symm

/-- So the result array ends holding the result row: the last point's block covers it. -/
theorem final_out (c : Dev nD) : (dats m 0 c).arrAt 7 cfg0.N = result m c :=
  (dats m 0 c).arrAt_eq_of_cover 7 (result m c) (flushed_eq m c) fun i =>
    ⟨tLast, (flush0_7 tLast).mpr (by decide), by
      show i ∈ ((View.whole main_v14).slice (win0_7.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 128 from by decide +kernel]; omega⟩

end Cert.KernelIdeal.StarValue

end
-- ==== Proof.StarTail.lean ====
/-
  The host lines after the region, and the kernel program's run read back.

  After the region the program flattens the 1 × 128 result row, slices lanes 0 … 4 out as scalars (the five totals) and
  combines them: lane0 · (lane2 / n + ε) + lane1 · (lane3 / n + ε) + ½ · (lane4 / n) (`tailOf`). Run on the arrays the
  region leaves, those lines put `tailOf` of the result array into the result scalar (`tail_of_arrays`); with the result
  array at the accumulated row (StarAccum's `final_out`) this names the program's result (`tail_eq`, `run`).
-/
import proofs.«144680_j20478404067923_1_alg».proof.Proof.StarAccum
import Idealize.ShloMosaic.Lib.StableHlo.Run

noncomputable section

open Idealize.ShloMosaic Idealize.ShloMosaic.TcCoe Idealize.SL.Sem
open Idealize.ShloMosaic.Pipeline (Dat)

namespace Cert.KernelIdeal.StarValue

open Cert.KernelIdeal Cert.KernelIdeal.Gen

variable {F : FTy → Type} [FloatOps F]
variable (m : (ℓ : Loc nD τ sig) → Buf (Elt F) ℓ) (ρ : Dev nD → PrngReg)

/-- Lane k of the row as a scalar: the row flattened to 128 entries, entry k sliced out and reshaped to rank zero. -/
abbrev rowF (o : (⟨S1x128, .f32⟩ : BufTy).Contents (Elt F)) : (⟨S128, .f32⟩ : BufTy).Contents (Elt F) :=
  shapeCast _ o shapeCasts_S1x128_S128

/-- The closed-form combination of the five totals held in lanes 0 … 4 of the row:
    lane0 · (lane2 / n + ε) + lane1 · (lane3 / n + ε) + ½ · (lane4 / n). -/
def tailOf (o : (⟨S1x128, .f32⟩ : BufTy).Contents (Elt F)) : (⟨S_, .f32⟩ : BufTy).Contents (Elt F) :=
  addf
    (addf
      (mulf (shapeCast _ (extractStridedSlice S1 ![0] (rowF o) slices_S128_S1_0) shapeCasts_S1_S_)
        (addf (Host.divf (shapeCast _ (extractStridedSlice S1 ![2] (rowF o) slices_S128_S1_2) shapeCasts_S1_S_)
            (constant (F := F) S_ .f32 0x4B800000#32)) (constant (F := F) S_ .f32 0x3727C5AC#32)))
      (mulf (shapeCast _ (extractStridedSlice S1 ![1] (rowF o) slices_S128_S1_1) shapeCasts_S1_S_)
        (addf (Host.divf (shapeCast _ (extractStridedSlice S1 ![3] (rowF o) slices_S128_S1_3) shapeCasts_S1_S_)
            (constant (F := F) S_ .f32 0x4B800000#32)) (constant (F := F) S_ .f32 0x3727C5AC#32))))
    (mulf (constant (F := F) S_ .f32 0x3F000000#32)
      (Host.divf (shapeCast _ (extractStridedSlice S1 ![4] (rowF o) slices_S128_S1_4) shapeCasts_S1_S_)
        (constant (F := F) S_ .f32 0x4B800000#32)))

set_option maxHeartbeats 4000000 in
/-- The host lines after the region, run on the region's arrays A: the result scalar is `tailOf` of the result array. -/
theorem tail_of_arrays (c : Dev nD) (A : (w : Fin cfg0.W) → Buf (Elt F) (((cfg0.spec w).arr.view.loc (c.tc : Thread nD τ)))) :
    StableHlo.after hostOps1 (Pipeline.withArrays cfg0.spec c (V0 m c) A) (Proc.devRef .tc main_v35) = tailOf (A 7) := by
  after_results_simp
  rw [show Pipeline.withArrays cfg0.spec c (V0 m c) A (Proc.tc.devRef main_v14) = A 7 from
    Pipeline.withArrays_arr cfg0.spec launch0.win.arr_inj c (V0 m c) A 7]
  rfl

/-- The kernel program's result: the closed-form combination of the accumulated row. -/
theorem tail_eq (c : Dev nD) :
    Pipeline.afterTail₀ cfgs (dats m) 0 (V0 m) [hostOps1] c main_v35 = tailOf (result m c) := by
  unfold Pipeline.afterTail₀
  refine (tail_of_arrays m c fun w => (dats m 0 c).arrAt w cfg0.N).trans ?_
  exact congrArg tailOf (final_out m c)

/-- The run, read: the result scalar at `tailOf` of the accumulated row, the three arguments unchanged. -/
theorem run : θ_run defs (onTc (τ := τ) (main (F := F))) ⟨m, fun _ => 0, ρ⟩ fun r => ∀ c : Dev nD,
      r.2.mem ((c.tc : Thread nD τ).loc main_v35) = tailOf (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v35 (Pipeline.mem_restRefs_of main_v35 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.StarValue

end
-- ==== Proof.StarSpec.lean ====
/-
  The quantities of a loss built on the eigen-decomposition of a symmetric 2×2 matrix [[a, b], [b, d]] per landmark,
  as functions on the extended reals.

  Per landmark: the eigenvalues lam1 ≥ lam2 (mean ± delta), a unit eigenvector (vx, vy) of lam1 — the axis vector when
  |b| is below a threshold — and the residual (px − tx, py − ty) projected on that vector (r1) and on its normal (r2).
  Over all 4096 × 4096 landmarks five totals are taken: D1 = Σ r1², D2 = Σ r2², S1 = Σ 1/√lam1, S2 = Σ 1/√lam2 and
  T = Σ (lam1 + lam2). The loss is D1·(S1/n + ε) + D2·(S2/n + ε) + ½·(T/n), with n the number of landmarks.
  Float words are kept as the extended reals their patterns denote.
-/
import Idealize.ShloMosaic.PureOps.Ideal
import Idealize.ShloMosaic.Lib.ValueIdx

noncomputable section

open scoped BigOperators

namespace Cert.Proof.Star

open Idealize.ShloMosaic Idealize.ShloMosaic.ValueIdx

/-! ## The float words the two programs spell -/

abbrev wZero : EReal := Ideal.ofBits .f32 0x00000000#32
abbrev wHalf : EReal := Ideal.ofBits .f32 0x3F000000#32
abbrev wOne : EReal := Ideal.ofBits .f32 0x3F800000#32
/-- the threshold under which the off-diagonal entry counts as zero -/
abbrev wTiny : EReal := Ideal.ofBits .f32 0x2B8CBCCC#32
abbrev wEps : EReal := Ideal.ofBits .f32 0x3727C5AC#32
/-- the number of landmarks, 4096 · 4096 = 2^24 -/
abbrev wCount : EReal := Ideal.ofBits .f32 0x4B800000#32

/-! ## One landmark -/

def mean (a d : EReal) : EReal := wHalf * (a + d)
def delta (a b d : EReal) : EReal := Ideal.sqrt ((wHalf * (a - d)) * (wHalf * (a - d)) + b * b)
/-- the larger eigenvalue -/
def lam1 (a b d : EReal) : EReal := mean a d + delta a b d
/-- the smaller eigenvalue -/
def lam2 (a b d : EReal) : EReal := mean a d - delta a b d
/-- the matrix counts as diagonal -/
def diag (b : EReal) : BitVec 1 := Ideal.cmp .olt (max b (-b)) wTiny
def ge (a d : EReal) : BitVec 1 := Ideal.cmp .oge a d
/-- the eigenvector of lam1 before normalisation -/
def vx0 (a b d : EReal) : EReal := Scalar.select (diag b) (Scalar.select (ge a d) wOne wZero) b
def vy0 (a b d : EReal) : EReal := Scalar.select (diag b) (Scalar.select (ge a d) wZero wOne) (lam1 a b d - a)
/-- the reciprocal of its length -/
def invn (a b d : EReal) : EReal := Ideal.div wOne (Ideal.sqrt (vx0 a b d * vx0 a b d + vy0 a b d * vy0 a b d))
def vx (a b d : EReal) : EReal := vx0 a b d * invn a b d
def vy (a b d : EReal) : EReal := vy0 a b d * invn a b d
/-- the residual along the eigenvector of lam1 -/
def r1 (a b d px py tx ty : EReal) : EReal := vx a b d * (px - tx) + vy a b d * (py - ty)
/-- the residual along its normal -/
def r2 (a b d px py tx ty : EReal) : EReal := (-(vy a b d)) * (px - tx) + vx a b d * (py - ty)
/-- one over the square root -/
def invSqrt (x : EReal) : EReal := Ideal.div wOne (Ideal.sqrt x)

/-! ## The three argument arrays and their seven planes -/

abbrev Pts := (⟨3, ![4096, 4096, 2]⟩ : Shape).Idx → EReal
abbrev Cov := (⟨4, ![4096, 4096, 2, 2]⟩ : Shape).Idx → EReal

def pa (cov : Cov) (i j : Fin 4096) : EReal := cov (ix4 i j (0 : Fin 2) (0 : Fin 2))
def pb (cov : Cov) (i j : Fin 4096) : EReal := cov (ix4 i j (0 : Fin 2) (1 : Fin 2))
def pd (cov : Cov) (i j : Fin 4096) : EReal := cov (ix4 i j (1 : Fin 2) (1 : Fin 2))
def p0 (x : Pts) (i j : Fin 4096) : EReal := x (ix3 i j (0 : Fin 2))
def p1 (x : Pts) (i j : Fin 4096) : EReal := x (ix3 i j (1 : Fin 2))

/-- r1² at landmark (i, j) -/
def sq1At (pred : Pts) (cov : Cov) (target : Pts) (i j : Fin 4096) : EReal :=
  r1 (pa cov i j) (pb cov i j) (pd cov i j) (p0 pred i j) (p1 pred i j) (p0 target i j) (p1 target i j)
    * r1 (pa cov i j) (pb cov i j) (pd cov i j) (p0 pred i j) (p1 pred i j) (p0 target i j) (p1 target i j)
/-- r2² at landmark (i, j) -/
def sq2At (pred : Pts) (cov : Cov) (target : Pts) (i j : Fin 4096) : EReal :=
  r2 (pa cov i j) (pb cov i j) (pd cov i j) (p0 pred i j) (p1 pred i j) (p0 target i j) (p1 target i j)
    * r2 (pa cov i j) (pb cov i j) (pd cov i j) (p0 pred i j) (p1 pred i j) (p0 target i j) (p1 target i j)
def u1At (cov : Cov) (i j : Fin 4096) : EReal := invSqrt (lam1 (pa cov i j) (pb cov i j) (pd cov i j))
def u2At (cov : Cov) (i j : Fin 4096) : EReal := invSqrt (lam2 (pa cov i j) (pb cov i j) (pd cov i j))
def trAt (cov : Cov) (i j : Fin 4096) : EReal :=
  lam1 (pa cov i j) (pb cov i j) (pd cov i j) + lam2 (pa cov i j) (pb cov i j) (pd cov i j)

/-! ## The five totals and the loss -/

def D1 (pred : Pts) (cov : Cov) (target : Pts) : EReal := ∑ i : Fin 4096, ∑ j : Fin 4096, sq1At pred cov target i j
def D2 (pred : Pts) (cov : Cov) (target : Pts) : EReal := ∑ i : Fin 4096, ∑ j : Fin 4096, sq2At pred cov target i j
def S1 (cov : Cov) : EReal := ∑ i : Fin 4096, ∑ j : Fin 4096, u1At cov i j
def S2 (cov : Cov) : EReal := ∑ i : Fin 4096, ∑ j : Fin 4096, u2At cov i j
def T (cov : Cov) : EReal := ∑ i : Fin 4096, ∑ j : Fin 4096, trAt cov i j

/-- The loss as the five totals combine: D1·(S1/n + ε) + D2·(S2/n + ε) + ½·(T/n). -/
def loss (pred : Pts) (cov : Cov) (target : Pts) : EReal :=
  (D1 pred cov target * (Ideal.div (S1 cov) wCount + wEps) + D2 pred cov target * (Ideal.div (S2 cov) wCount + wEps))
    + wHalf * Ideal.div (T cov) wCount

/-- The loss as a mean over landmarks of (1/√lam1 + ε)·d1 + (1/√lam2 + ε)·d2 + ½·(lam1 + lam2), the two residual totals
    d1, d2 and the outer sum each taken from the zero word over the whole index set. -/
def meanLoss (pred : Pts) (cov : Cov) (target : Pts) : EReal :=
  Ideal.div (wZero + ∑ q : (⟨2, ![4096, 4096]⟩ : Shape).Idx,
      (((u1At cov (q 0) (q 1) + wEps) * (wZero + ∑ p : (⟨2, ![4096, 4096]⟩ : Shape).Idx, sq1At pred cov target (p 0) (p 1))
        + (u2At cov (q 0) (q 1) + wEps) * (wZero + ∑ p : (⟨2, ![4096, 4096]⟩ : Shape).Idx, sq2At pred cov target (p 0) (p 1)))
        + wHalf * trAt cov (q 0) (q 1))) wCount

/-! ## The tile a grid point reads: point s of the 8 × 8 grid holds rows 512·(s / 8) … and columns 512·(s % 8) … -/

def rowOf (s : Fin 64) (r : Fin 512) : Fin 4096 := ⟨512 * (s.val / 8) + r.val, by have := s.isLt; have := r.isLt; omega⟩
def colOf (s : Fin 64) (c : Fin 512) : Fin 4096 := ⟨512 * (s.val % 8) + c.val, by have := s.isLt; have := c.isLt; omega⟩

end Cert.Proof.Star

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibColumnSum.lean ====
/-
  A sum down a one-lane column, read at an index of literal coordinates.

  A kernel that totals an `a × b` array one axis at a time first sums the lanes of each row, keeps the row sums as an
  `a × 1` column, and then sums the column's `a` entries into a single entry. Read at the extended reals:

  * `lift_cols`: over the one kept index, the source index whose row coordinate is `k` is `(k, 0)`;
  * `multiReduction_add_cols`: the sum down the column `x : [a, 1]` is `∑ k, x (k, 0)`.
-/
import Idealize.ShloMosaic.PureOps.Ideal
import Idealize.ShloMosaic.PureOps.Ideal.Laws
import Idealize.ShloMosaic.Lib.ValueIdx

noncomputable section

open scoped BigOperators

namespace Cert.Proof.ColumnSum

open Idealize.ShloMosaic Idealize.ShloMosaic.ValueIdx

/-- Over the one kept index, the source index whose row coordinate is `k` is `(k, 0)`. -/
theorem lift_cols {a : ℕ} (h : (⟨2, ![a, 1]⟩ : Shape).Reduces [(0 : Fin 2)] ⟨1, ![1]⟩) (u : Fin 1) (k : Fin a) :
    h.lift (ix1 u) k = ix2 k (0 : Fin 1) := by
  funext c
  refine Fin.ext ?_
  match c with
  | ⟨0, _⟩ => rfl
  | ⟨1, _⟩ =>
    show u.val = 0
    omega

/-- A float sum down an `a × 1` column, at the extended reals, is `∑ k, x (k, 0)`. The accumulator fact is taken in the
    form a printed program carries it. -/
theorem multiReduction_add_cols {a : ℕ} {φ : FTy} (x : FVec Ideal ⟨2, ![a, 1]⟩ φ) (acc : BitVec φ.bits)
    (h : (⟨2, ![a, 1]⟩ : Shape).Reduces [(0 : Fin 2)] ⟨1, ![1]⟩) (hφ : FKind.Formats φ)
    (hacc : acc = FKind.add.neutral φ hφ) (u : Fin 1) :
    multiReduction .add [(0 : Fin 2)] ⟨1, ![1]⟩ x acc h hφ hacc (ix1 u) = ∑ k : Fin a, x (ix2 k (0 : Fin 1)) := by
  refine (Ideal.multiReduction_add_single x acc h hφ hacc (ix1 u)).trans ?_
  exact Finset.sum_congr rfl fun k _ => congrArg x (lift_cols h u k)

end Cert.Proof.ColumnSum

end
-- ==== Proof.StarSums.lean ====
/-
  Two facts about totals over a 4096 × 4096 index square cut into 64 tiles of 512 × 512.

  * sum_tiles: the square is the disjoint union of its tiles, tile s holding rows 512·(s / 8) + r and columns
    512·(s % 8) + c, so a sum over the square is the sum over the tiles of the sums over each tile — in any commutative
    monoid, so also on the extended reals.
  * blockTotal: the total of one 512 × 512 block taken one axis at a time — lane sums to a vector of 512 row sums, that
    vector kept as a 512 × 1 column, the column summed to a single entry, that entry kept as a 1 × 1 array and read —
    is, at the extended reals, the double sum of the block's entries. blockTotal_of is the same for any witnesses of the
    shape relations involved.
-/
import proofs.«144680_j20478404067923_1_alg».proof.Proof.StarSpec
import proofs.«144680_j20478404067923_1_alg».proof.Proof.LibSumRuns
import proofs.«144680_j20478404067923_1_alg».proof.Proof.LibColumns
import proofs.«144680_j20478404067923_1_alg».proof.Proof.LibColumnSum
import proofs.«144680_j20478404067923_1_alg».proof.KernelIdeal
import Idealize.ShloMosaic.Lib.ValueIdx
import Idealize.ShloMosaic.Lib.Pipeline.Value
import Idealize.ShloMosaic.PureOps.Ideal.Laws

noncomputable section

open scoped BigOperators

namespace Cert.Proof.Star

/-! ## Tiles -/

/-- Over the naturals: an (n·m) × (n·m) square is the union of n·n tiles of m × m, tile s holding rows m·(s / n) + r and
    columns m·(s % n) + c. -/
theorem sum_tiles_nat {M : Type*} [AddCommMonoid M] (G : ℕ → ℕ → M) (n m : ℕ) (hn : 0 < n) :
    ∑ s ∈ Finset.range (n * n), ∑ r ∈ Finset.range m, ∑ c ∈ Finset.range m, G (m * (s / n) + r) (m * (s % n) + c)
      = ∑ i ∈ Finset.range (n * m), ∑ j ∈ Finset.range (n * m), G i j := by
  rw [← Cert.LibSumRuns.sum_range_mul
    (fun s => ∑ r ∈ Finset.range m, ∑ c ∈ Finset.range m, G (m * (s / n) + r) (m * (s % n) + c)) n n]
  rw [← Cert.LibSumRuns.sum_range_mul (fun i => ∑ j ∈ Finset.range (n * m), G i j) n m]
  refine Finset.sum_congr rfl fun q _ => ?_
  rw [Finset.sum_comm]
  refine Finset.sum_congr rfl fun r _ => ?_
  rw [← Cert.LibSumRuns.sum_range_mul (fun j => G (m * q + r) j) n m]
  refine Finset.sum_congr rfl fun p hp => ?_
  have hp' : p < n := Finset.mem_range.1 hp
  have h1 : (n * q + p) / n = q := by
    rw [Nat.mul_add_div hn, Nat.div_eq_of_lt hp', Nat.add_zero]
  have h2 : (n * q + p) % n = p := by
    rw [Nat.mul_add_mod, Nat.mod_eq_of_lt hp']
  show ∑ c ∈ Finset.range m, G (m * ((n * q + p) / n) + r) (m * ((n * q + p) % n) + c)
    = ∑ c ∈ Finset.range m, G (m * q + r) (m * p + c)
  rw [h1, h2]

/-- The 4096 × 4096 index square is the disjoint union of the 64 tiles of 512 × 512. -/
theorem sum_tiles {M : Type*} [AddCommMonoid M] (g : Fin 4096 → Fin 4096 → M) :
    ∑ s : Fin 64, ∑ r : Fin 512, ∑ c : Fin 512, g (rowOf s r) (colOf s c) = ∑ i : Fin 4096, ∑ j : Fin 4096, g i j := by
  -- g extended by zero outside the square
  let G : ℕ → ℕ → M := fun i j => if h : i < 4096 ∧ j < 4096 then g ⟨i, h.1⟩ ⟨j, h.2⟩ else 0
  have hR : ∀ i j : Fin 4096, g i j = G i.val j.val := fun i j => by
    show g i j = if h : i.val < 4096 ∧ j.val < 4096 then g ⟨i.val, h.1⟩ ⟨j.val, h.2⟩ else 0
    rw [dif_pos ⟨i.isLt, j.isLt⟩]
  have hL : ∀ (s : Fin 64) (r c : Fin 512),
      g (rowOf s r) (colOf s c) = G (512 * (s.val / 8) + r.val) (512 * (s.val % 8) + c.val) :=
    fun s r c => hR (rowOf s r) (colOf s c)
  calc ∑ s : Fin 64, ∑ r : Fin 512, ∑ c : Fin 512, g (rowOf s r) (colOf s c)
      = ∑ s : Fin 64, ∑ r : Fin 512, ∑ c : Fin 512, G (512 * (s.val / 8) + r.val) (512 * (s.val % 8) + c.val) :=
        Finset.sum_congr rfl fun s _ => Finset.sum_congr rfl fun r _ => Finset.sum_congr rfl fun c _ => hL s r c
    _ = ∑ s ∈ Finset.range 64, ∑ r ∈ Finset.range 512, ∑ c ∈ Finset.range 512,
          G (512 * (s / 8) + r) (512 * (s % 8) + c) := by
        rw [Fin.sum_univ_eq_sum_range
          (fun s => ∑ r : Fin 512, ∑ c : Fin 512, G (512 * (s / 8) + r.val) (512 * (s % 8) + c.val)) 64]
        refine Finset.sum_congr rfl fun s _ => ?_
        rw [Fin.sum_univ_eq_sum_range (fun r => ∑ c : Fin 512, G (512 * (s / 8) + r) (512 * (s % 8) + c.val)) 512]
        refine Finset.sum_congr rfl fun r _ => ?_
        exact Fin.sum_univ_eq_sum_range (fun c => G (512 * (s / 8) + r) (512 * (s % 8) + c)) 512
    _ = ∑ i ∈ Finset.range 4096, ∑ j ∈ Finset.range 4096, G i j := sum_tiles_nat G 8 512 (by omega)
    _ = ∑ i : Fin 4096, ∑ j : Fin 4096, g i j := by
        rw [← Fin.sum_univ_eq_sum_range (fun i => ∑ j ∈ Finset.range 4096, G i j) 4096]
        refine Finset.sum_congr rfl fun i _ => ?_
        rw [← Fin.sum_univ_eq_sum_range (fun j => G i.val j) 4096]
        exact Finset.sum_congr rfl fun j _ => (hR i j).symm

/-! ## The total of one block, one axis at a time -/

open Idealize.ShloMosaic Idealize.ShloMosaic.ValueIdx Cert.KernelIdeal

/-- The total of a 512 × 512 block taken one axis at a time, for any witnesses of the shape relations. -/
theorem blockTotal_of (v : FVec Ideal S512x512 .f32)
    (h₁ : S512x512.Reduces [1] S512) (h₂ : S512.ShapeCasts S512x1) (h₃ : S512x1.Reduces [0] Cert.KernelIdeal.S1)
    (h₄ : Cert.KernelIdeal.S1.ShapeCasts S1x1) (h₅ : ∀ a, (![0, 0] : Fin 2 → Nat) a < S1x1.size a) :
    extractAt ![0, 0] (shapeCast S1x1 (multiReduction .add [0] Cert.KernelIdeal.S1 (shapeCast S512x1
        (multiReduction .add [1] S512 v 0x00000000#32 h₁ (.inl rfl) rfl) h₂) 0x00000000#32 h₃ (.inl rfl) rfl) h₄) h₅
      = ∑ r : Fin 512, ∑ c : Fin 512, v (ix2 r c) := by
  have e : (fun a => (⟨(![0, 0] : Fin 2 → Nat) a, h₅ a⟩ : Fin (S1x1.size a))) = ix2 (0 : Fin 1) (0 : Fin 1) := by
    funext a
    match a with
    | ⟨0, _⟩ => rfl
    | ⟨1, _⟩ => rfl
  unfold extractAt
  rw [e]
  refine (Cert.Proof.Columns.shapeCast_a_a1_apply _ h₄ (0 : Fin 1) (0 : Fin 1)).trans ?_
  refine (Cert.Proof.ColumnSum.multiReduction_add_cols _ _ h₃ _ _ (0 : Fin 1)).trans ?_
  refine Finset.sum_congr rfl fun r _ => ?_
  refine (Cert.Proof.Columns.shapeCast_a_a1_apply _ h₂ r (0 : Fin 1)).trans ?_
  exact Cert.Proof.Columns.multiReduction_add_rows v _ h₁ _ _ r

section
variable [Facts₀]
open Facts₀

/-- The total of a 512 × 512 block in the spelling a sum taken one axis at a time has on the vector unit: lane sum to
    [512], cast to a [512, 1] column, sum down the column to [1], cast to [1, 1], extract the one entry. -/
theorem blockTotal (v : FVec Ideal S512x512 .f32) :
    extractAt ![0, 0] (shapeCast S1x1 (multiReduction .add [0] Cert.KernelIdeal.S1 (shapeCast S512x1 (multiReduction .add [1] S512 v 0x00000000#32 reduces_S512x512_S512 (.inl rfl) rfl) shapeCasts_S512_S512x1) 0x00000000#32 reduces_S512x1_S1 (.inl rfl) rfl) shapeCasts_S1_S1x1) inpos_S1x1_p0_0
      = ∑ r : Fin 512, ∑ c : Fin 512, v (ix2 r c) :=
  blockTotal_of v _ _ _ _ _

end

end Cert.Proof.Star

end
-- ==== Proof.StarAlgebra.lean ====
/-
  Extended-real algebra for a loss that is linear in five totals over landmarks.

  On the extended reals (⊤ + ⊥ = ⊥, 0 · ⊤ = 0; multiplication does not distribute over addition in general) the mean
  over n landmarks of (u1 + ε)·d1 + (u2 + ε)·d2 + ½·h equals d1·(S1/n + ε) + d2·(S2/n + ε) + ½·(T/n), where S1, S2, T
  are the totals of u1, u2, h. It holds with d1, d2 and every h arbitrary (infinite or negative) because each weight u
  is non-negative — a sum of two non-negative factors distributes over any third factor — and because ε, ½ and 1/n are
  non-negative reals — a non-negative real factor distributes over any sum. The n copies of ε sum to the real n·ε, which
  the factor 1/n turns back into ε.

  Also here: the float words of the specification as the extended reals they denote, the weight 1/√x is non-negative at
  every extended real x (it is 0 where √x is junk or infinite, ⊤ where √x = 0), and the instantiation: the loss as a
  mean over landmarks equals the loss as the five totals combine.
-/
import Idealize.ShloMosaic.PureOps.Ideal
import Idealize.ShloMosaic.Lib.ValueIdx
import Mathlib.Data.EReal.Operations
import Mathlib.Data.EReal.Inv
import proofs.«144680_j20478404067923_1_alg».proof.Proof.StarSpec

noncomputable section

open scoped BigOperators

namespace Cert.Proof.Star

open Idealize.ShloMosaic Idealize.ShloMosaic.ValueIdx

/-! ## A non-negative real factor and sums -/

/-- A non-negative real factor distributes over the sum of any two extended reals. -/
theorem coe_mul_add_any {c : ℝ} (hc : 0 ≤ c) (x y : EReal) : (c : EReal) * (x + y) = (c : EReal) * x + (c : EReal) * y :=
  EReal.left_distrib_of_nonneg_of_ne_top (by exact_mod_cast hc) (EReal.coe_ne_top c) x y

/-- The same with the factor on the right. -/
theorem add_mul_coe_any {c : ℝ} (hc : 0 ≤ c) (x y : EReal) : (x + y) * (c : EReal) = x * (c : EReal) + y * (c : EReal) :=
  EReal.right_distrib_of_nonneg_of_ne_top (by exact_mod_cast hc) (EReal.coe_ne_top c) x y

/-- A non-negative real factor goes through any finite sum of extended reals. -/
theorem coe_mul_sum_any {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add_any hc, ih]

/-- A sum of non-negative extended reals times any factor is the sum of the products. -/
theorem sum_mul_of_nonneg {ι : Type*} (s : Finset ι) (u : ι → EReal) (hu : ∀ i, 0 ≤ u i) (d : EReal) :
    (∑ i ∈ s, u i) * d = ∑ i ∈ s, u i * d := by
  classical
  induction s using Finset.induction_on with
  | empty => simp
  | insert a s ha ih =>
    rw [Finset.sum_insert ha, Finset.sum_insert ha,
      EReal.right_distrib_of_nonneg (hu a) (Finset.sum_nonneg (fun i _ => hu i)), ih]

/-- The sum of one real over a finite type is the real card · e. -/
theorem sum_const_coe {ι : Type*} [Fintype ι] (e : ℝ) :
    ∑ _i : ι, (e : EReal) = (((Fintype.card ι : ℝ) * e : ℝ) : EReal) := by
  rw [Finset.sum_const, Finset.card_univ, ← EReal.coe_nsmul, nsmul_eq_mul]

/-! ## The identity over an abstract finite set of landmarks -/

/-- One weighted term: the mean of (u + ε)·d is d·(S/n + ε), for non-negative weights u, a non-negative real ε, the
    non-negative real c = 1/n and ANY d. -/
theorem mean_weighted {ι : Type*} [Fintype ι] (u : ι → EReal) (hu : ∀ i, 0 ≤ u i) (d : EReal) {e c : ℝ}
    (he : 0 ≤ e) (hc : 0 ≤ c) (hN : (Fintype.card ι : ℝ) * c = 1) :
    (∑ i, (u i + (e : EReal)) * d) * (c : EReal) = d * ((∑ i, u i) * (c : EReal) + (e : EReal)) := by
  have he' : (0 : EReal) ≤ (e : EReal) := by exact_mod_cast he
  have hc' : (0 : EReal) ≤ (c : EReal) := by exact_mod_cast hc
  have hS : (0 : EReal) ≤ ∑ i, u i := Finset.sum_nonneg (fun i _ => hu i)
  have hNe : (0 : ℝ) ≤ (Fintype.card ι : ℝ) * e := mul_nonneg (Nat.cast_nonneg _) he
  have hNe' : (0 : EReal) ≤ (((Fintype.card ι : ℝ) * e : ℝ) : EReal) := by exact_mod_cast hNe
  have hcancel : (((Fintype.card ι : ℝ) * e : ℝ) : EReal) * (c : EReal) = (e : EReal) := by
    rw [← EReal.coe_mul]
    congr 1
    rw [mul_assoc, mul_comm e c, ← mul_assoc, hN, one_mul]
  rw [← sum_mul_of_nonneg Finset.univ (fun i => u i + (e : EReal)) (fun i => add_nonneg (hu i) he') d,
    Finset.sum_add_distrib, sum_const_coe, mul_assoc, mul_comm d (c : EReal), ← mul_assoc,
    EReal.right_distrib_of_nonneg hS hNe', hcancel, mul_comm]

/-- The mean over landmarks of (u1 + ε)·d1 + (u2 + ε)·d2 + ½·h is d1·(S1/n + ε) + d2·(S2/n + ε) + ½·(T/n): u1, u2
    non-negative, ε, ½ (here any hf ≥ 0) and c = 1/n non-negative reals, d1, d2 and the h's arbitrary. -/
theorem mean_identity {ι : Type*} [Fintype ι] (u1 u2 h : ι → EReal) (d1 d2 : EReal) {e hf c : ℝ}
    (he : 0 ≤ e) (hhf : 0 ≤ hf) (hc : 0 ≤ c) (hu1 : ∀ i, 0 ≤ u1 i) (hu2 : ∀ i, 0 ≤ u2 i)
    (hN : (Fintype.card ι : ℝ) * c = 1) :
    (∑ i, (((u1 i + (e : EReal)) * d1 + (u2 i + (e : EReal)) * d2) + (hf : EReal) * h i)) * (c : EReal)
      = (d1 * ((∑ i, u1 i) * (c : EReal) + (e : EReal)) + d2 * ((∑ i, u2 i) * (c : EReal) + (e : EReal)))
        + (hf : EReal) * ((∑ i, h i) * (c : EReal)) := by
  rw [Finset.sum_add_distrib, Finset.sum_add_distrib, add_mul_coe_any hc, add_mul_coe_any hc,
    mean_weighted u1 hu1 d1 he hc hN, mean_weighted u2 hu2 d2 he hc hN, ← coe_mul_sum_any Finset.univ hhf h, mul_assoc]

/-! ## The float words -/

theorem wZero_eq : wZero = 0 := by
  simp [Ideal.ofBits, Ideal.ieee]

theorem wOne_eq : wOne = 1 := by
  simp [Ideal.ofBits, Ideal.ieee, -EReal.coe_mul]; norm_num

theorem wHalf_eq : wHalf = (((1 : ℝ) / 2 : ℝ) : EReal) := by
  simp [Ideal.ofBits, Ideal.ieee, -EReal.coe_mul]; norm_num

theorem wCount_eq : wCount = ((16777216 : ℝ) : EReal) := by
  simp [Ideal.ofBits, Ideal.ieee, -EReal.coe_mul]; norm_num

theorem wEps_real : ∃ e : ℝ, 0 ≤ e ∧ wEps = (e : EReal) := by
  refine ⟨(10995116 : ℝ) * (2 : ℝ) ^ (-40 : ℤ), by positivity, ?_⟩
  simp [Ideal.ofBits, Ideal.ieee, -EReal.coe_mul]

/-! ## The weight 1/√x is non-negative -/

/-- A square root is junk (⊥) or non-negative. -/
theorem sqrt_bot_or_nonneg (x : EReal) : Ideal.sqrt x = ⊥ ∨ 0 ≤ Ideal.sqrt x := by
  induction x using EReal.rec with
  | bot => exact Or.inl rfl
  | top => exact Or.inr le_top
  | coe r =>
    rw [Ideal.sqrt_coe]
    by_cases hr : r < 0
    · exact Or.inl (if_pos hr)
    · right
      rw [if_neg hr]
      exact_mod_cast Real.sqrt_nonneg r

/-- One over junk or over a non-negative extended real is non-negative: 0 at ⊥ and ⊤, ⊤ at 0. -/
theorem one_div_nonneg (y : EReal) (hy : y = ⊥ ∨ 0 ≤ y) : 0 ≤ Ideal.div 1 y := by
  unfold Ideal.div
  by_cases h0 : y = 0
  · rw [if_pos h0, if_pos zero_lt_one]; exact le_top
  · rw [if_neg h0, one_mul]
    rcases hy with rfl | hy
    · rw [EReal.inv_bot]
    · exact EReal.inv_nonneg_of_nonneg hy

theorem invSqrt_nonneg (x : EReal) : 0 ≤ invSqrt x := by
  unfold invSqrt
  rw [wOne_eq]
  exact one_div_nonneg _ (sqrt_bot_or_nonneg x)

/-! ## The instantiation at the 4096 × 4096 landmarks -/

/-- The number of landmarks. -/
theorem card_landmarks : (Fintype.card (Fin 4096 × Fin 4096) : ℝ) = 16777216 := by
  rw [Fintype.card_prod, Fintype.card_fin]; norm_num

theorem meanLoss_eq_loss (pred : Pts) (cov : Cov) (target : Pts) : meanLoss pred cov target = loss pred cov target := by
  obtain ⟨e, he, hE⟩ := wEps_real
  have hcnt : (16777216 : ℝ) ≠ 0 := by norm_num
  have hD1 : (∑ p : (⟨2, ![4096, 4096]⟩ : Shape).Idx, sq1At pred cov target (p 0) (p 1)) = D1 pred cov target := by
    rw [sum_idx2]; rfl
  have hD2 : (∑ p : (⟨2, ![4096, 4096]⟩ : Shape).Idx, sq2At pred cov target (p 0) (p 1)) = D2 pred cov target := by
    rw [sum_idx2]; rfl
  have hS1 : S1 cov = ∑ p : Fin 4096 × Fin 4096, u1At cov p.1 p.2 := by
    rw [Fintype.sum_prod_type']; rfl
  have hS2 : S2 cov = ∑ p : Fin 4096 × Fin 4096, u2At cov p.1 p.2 := by
    rw [Fintype.sum_prod_type']; rfl
  have hT : T cov = ∑ p : Fin 4096 × Fin 4096, trAt cov p.1 p.2 := by
    rw [Fintype.sum_prod_type']; rfl
  unfold meanLoss loss
  rw [hD1, hD2, sum_idx2, hS1, hS2, hT, wZero_eq, wCount_eq, wHalf_eq, hE, zero_add, zero_add, zero_add,
    Ideal.div_coe hcnt, Ideal.div_coe hcnt, Ideal.div_coe hcnt, Ideal.div_coe hcnt]
  rw [← mean_identity (fun p : Fin 4096 × Fin 4096 => u1At cov p.1 p.2) (fun p => u2At cov p.1 p.2)
    (fun p => trAt cov p.1 p.2) (D1 pred cov target) (D2 pred cov target) he (by norm_num : (0 : ℝ) ≤ 1 / 2)
    (by norm_num : (0 : ℝ) ≤ 1 / 16777216) (fun p => invSqrt_nonneg _) (fun p => invSqrt_nonneg _)
    (by rw [card_landmarks]; norm_num)]
  exact congrArg (fun s : EReal => s * (((1 : ℝ) / 16777216 : ℝ) : EReal))
    (Fintype.sum_prod_type' (fun a b : Fin 4096 =>
      ((u1At cov a b + (e : EReal)) * D1 pred cov target + (u2At cov a b + (e : EReal)) * D2 pred cov target)
        + (((1 : ℝ) / 2 : ℝ) : EReal) * trAt cov a b)).symm

end Cert.Proof.Star

end
-- ==== Proof.StarLanes.lean ====
/-
  One grid point's contribution, lane by lane.

  From its seven 512 × 512 blocks (a, b, d, px, py, tx, ty) a grid point forms a row of 128 lanes: lane k, k = 0 … 4,
  holds the k-th of five block totals and every other lane the zero word. Here each payload of that computation is read
  at an index of the block as the scalar function of the landmark it computes (mean, delta, the two eigenvalues, the
  eigenvector before and after normalisation, the residuals), the row is read at lanes 0 … 4, and each of the five lanes
  is identified with the double sum over the block of the landmark's quantity:

  * lane 0: Σ r1², lane 1: Σ r2², lane 2: Σ 1/√lam1, lane 3: Σ 1/√lam2, lane 4: Σ (lam1 + lam2).
-/
import proofs.«144680_j20478404067923_1_alg».proof.Proof.StarCases
import proofs.«144680_j20478404067923_1_alg».proof.Proof.StarSpec
import proofs.«144680_j20478404067923_1_alg».proof.Proof.StarSums
import proofs.«144680_j20478404067923_1_alg».proof.Proof.StarAlgebra
import Idealize.ShloMosaic.Lib.ValueIdx
import Idealize.ShloMosaic.Lib.Pipeline.Value

noncomputable section

open scoped BigOperators

namespace Cert.KernelIdeal.StarValue

open Idealize.ShloMosaic Idealize.ShloMosaic.ValueIdx
open Cert.KernelIdeal Cert.KernelIdeal.Gen Cert.Proof.Star

/-! ## The payloads read at an index of the block -/

section Pointwise
variable (x0 x1 x2 x3 x4 x5 x6 : Vec Ideal S512x512 .f32) (y : S512x512.Idx)

theorem pay3_eq (x : Vec Ideal S512x512 .f32) : k0_pay3 (F := Ideal) x = x := shapeCast_self _ _
theorem pay4_eq (x : Vec Ideal S512x512 .f32) : k0_pay4 (F := Ideal) x = x := shapeCast_self _ _
theorem pay5_eq (x : Vec Ideal S512x512 .f32) : k0_pay5 (F := Ideal) x = x := shapeCast_self _ _

/-- half the trace -/
theorem pay6_apply : k0_pay6 (F := Ideal) x0 x2 y = mean (x0 y) (x2 y) := by
  simp only [k0_pay6, pay3_eq, pay5_eq]; rfl

/-- the half-difference of the eigenvalues -/
theorem pay7_apply : k0_pay7 (F := Ideal) x0 x1 x2 y = delta (x0 y) (x1 y) (x2 y) := by
  simp only [k0_pay7, pay3_eq, pay4_eq, pay5_eq]; rfl

theorem pay8_apply : k0_pay8 (F := Ideal) x0 x1 x2 y = lam1 (x0 y) (x1 y) (x2 y) := by
  show k0_pay6 (F := Ideal) x0 x2 y + k0_pay7 (F := Ideal) x0 x1 x2 y = _
  rw [pay6_apply, pay7_apply]; rfl

theorem pay9_apply : k0_pay9 (F := Ideal) x0 x1 x2 y = lam2 (x0 y) (x1 y) (x2 y) := by
  show k0_pay6 (F := Ideal) x0 x2 y - k0_pay7 (F := Ideal) x0 x1 x2 y = _
  rw [pay6_apply, pay7_apply]; rfl

theorem pay10_apply : k0_pay10 (F := Ideal) x1 y = diag (x1 y) := by
  simp only [k0_pay10, pay4_eq]; rfl

theorem pay11_apply : k0_pay11 (F := Ideal) x0 x2 y = ge (x0 y) (x2 y) := by
  simp only [k0_pay11, pay3_eq, pay5_eq]; rfl

theorem pay12_apply : k0_pay12 (F := Ideal) x0 x1 x2 y = vx0 (x0 y) (x1 y) (x2 y) := by
  show Scalar.select (k0_pay10 (F := Ideal) x1 y) (Scalar.select (k0_pay11 (F := Ideal) x0 x2 y) wOne wZero)
    (k0_pay4 (F := Ideal) x1 y) = _
  rw [pay10_apply, pay11_apply, pay4_eq]; rfl

theorem pay13_apply : k0_pay13 (F := Ideal) x0 x1 x2 y = vy0 (x0 y) (x1 y) (x2 y) := by
  show Scalar.select (k0_pay10 (F := Ideal) x1 y) (Scalar.select (k0_pay11 (F := Ideal) x0 x2 y) wZero wOne)
    (k0_pay8 (F := Ideal) x0 x1 x2 y - k0_pay3 (F := Ideal) x0 y) = _
  rw [pay10_apply, pay11_apply, pay8_apply, pay3_eq]; rfl

theorem pay14_apply : k0_pay14 (F := Ideal) x0 x1 x2 y
    = Ideal.sqrt (vx0 (x0 y) (x1 y) (x2 y) * vx0 (x0 y) (x1 y) (x2 y) + vy0 (x0 y) (x1 y) (x2 y) * vy0 (x0 y) (x1 y) (x2 y)) := by
  show Ideal.sqrt (k0_pay12 (F := Ideal) x0 x1 x2 y * k0_pay12 (F := Ideal) x0 x1 x2 y
    + k0_pay13 (F := Ideal) x0 x1 x2 y * k0_pay13 (F := Ideal) x0 x1 x2 y) = _
  rw [pay12_apply, pay13_apply]

theorem pay15_apply : k0_pay15 (k0_pay14 (F := Ideal) x0 x1 x2) (Scalar.ofBits .f32 0x3F800000#32) y
    = invn (x0 y) (x1 y) (x2 y) := by
  show Ideal.div wOne (k0_pay14 (F := Ideal) x0 x1 x2 y) = _
  rw [pay14_apply]; rfl

theorem pay16_apply : k0_pay16 (k0_pay12 (F := Ideal) x0 x1 x2) (k0_pay14 (F := Ideal) x0 x1 x2) (Scalar.ofBits .f32 0x3F800000#32) y
    = vx (x0 y) (x1 y) (x2 y) := by
  show k0_pay12 (F := Ideal) x0 x1 x2 y * k0_pay15 (k0_pay14 (F := Ideal) x0 x1 x2) (Scalar.ofBits .f32 0x3F800000#32) y = _
  rw [pay12_apply, pay15_apply]; rfl

theorem pay17_apply : k0_pay17 (k0_pay13 (F := Ideal) x0 x1 x2) (k0_pay14 (F := Ideal) x0 x1 x2) (Scalar.ofBits .f32 0x3F800000#32) y
    = vy (x0 y) (x1 y) (x2 y) := by
  show k0_pay13 (F := Ideal) x0 x1 x2 y * k0_pay15 (k0_pay14 (F := Ideal) x0 x1 x2) (Scalar.ofBits .f32 0x3F800000#32) y = _
  rw [pay13_apply, pay15_apply]; rfl

theorem pay18_apply (p t : Vec Ideal S512x512 .f32) : k0_pay18 (F := Ideal) p t y = p y - t y := by
  simp only [k0_pay18, shapeCast_self]; rfl

theorem pay19_apply (p t : Vec Ideal S512x512 .f32) : k0_pay19 (F := Ideal) p t y = p y - t y := by
  simp only [k0_pay19, shapeCast_self]; rfl

end Pointwise

/-! ## The row read at a lane -/

/-- A lane compare at an index compares the words. -/
theorem cmpi_apply' {s : Shape} {w : Nat} (p : CmpIPredicate) (a b : IVec s w) (i : s.Idx) :
    cmpi p a b i = IntOp.cmpi p (a i) (b i) := rfl

/-- Five values each kept where the lane number w is its own index and replaced by the zero word elsewhere, added up
    from the left. -/
def laneMix (w : BitVec 32) (a0 a1 a2 a3 a4 : EReal) : EReal :=
  ((((Scalar.select (IntOp.cmpi .eq w 0#32) a0 wZero + Scalar.select (IntOp.cmpi .eq w 1#32) a1 wZero)
    + Scalar.select (IntOp.cmpi .eq w 2#32) a2 wZero) + Scalar.select (IntOp.cmpi .eq w 3#32) a3 wZero)
    + Scalar.select (IntOp.cmpi .eq w 4#32) a4 wZero)

theorem laneMix_0 (a0 a1 a2 a3 a4 : EReal) : laneMix 0#32 a0 a1 a2 a3 a4 = a0 := by
  unfold laneMix
  rw [show IntOp.cmpi .eq 0#32 0#32 = 1#1 from by decide, show IntOp.cmpi .eq 0#32 1#32 = 0#1 from by decide,
    show IntOp.cmpi .eq 0#32 2#32 = 0#1 from by decide, show IntOp.cmpi .eq 0#32 3#32 = 0#1 from by decide,
    show IntOp.cmpi .eq 0#32 4#32 = 0#1 from by decide]
  simp only [select_one, select_zero, wZero_eq, add_zero]

theorem laneMix_1 (a0 a1 a2 a3 a4 : EReal) : laneMix 1#32 a0 a1 a2 a3 a4 = a1 := by
  unfold laneMix
  rw [show IntOp.cmpi .eq 1#32 0#32 = 0#1 from by decide, show IntOp.cmpi .eq 1#32 1#32 = 1#1 from by decide,
    show IntOp.cmpi .eq 1#32 2#32 = 0#1 from by decide, show IntOp.cmpi .eq 1#32 3#32 = 0#1 from by decide,
    show IntOp.cmpi .eq 1#32 4#32 = 0#1 from by decide]
  simp only [select_one, select_zero, wZero_eq, add_zero, zero_add]

theorem laneMix_2 (a0 a1 a2 a3 a4 : EReal) : laneMix 2#32 a0 a1 a2 a3 a4 = a2 := by
  unfold laneMix
  rw [show IntOp.cmpi .eq 2#32 0#32 = 0#1 from by decide, show IntOp.cmpi .eq 2#32 1#32 = 0#1 from by decide,
    show IntOp.cmpi .eq 2#32 2#32 = 1#1 from by decide, show IntOp.cmpi .eq 2#32 3#32 = 0#1 from by decide,
    show IntOp.cmpi .eq 2#32 4#32 = 0#1 from by decide]
  simp only [select_one, select_zero, wZero_eq, add_zero, zero_add]

theorem laneMix_3 (a0 a1 a2 a3 a4 : EReal) : laneMix 3#32 a0 a1 a2 a3 a4 = a3 := by
  unfold laneMix
  rw [show IntOp.cmpi .eq 3#32 0#32 = 0#1 from by decide, show IntOp.cmpi .eq 3#32 1#32 = 0#1 from by decide,
    show IntOp.cmpi .eq 3#32 2#32 = 0#1 from by decide, show IntOp.cmpi .eq 3#32 3#32 = 1#1 from by decide,
    show IntOp.cmpi .eq 3#32 4#32 = 0#1 from by decide]
  simp only [select_one, select_zero, wZero_eq, add_zero, zero_add]

theorem laneMix_4 (a0 a1 a2 a3 a4 : EReal) : laneMix 4#32 a0 a1 a2 a3 a4 = a4 := by
  unfold laneMix
  rw [show IntOp.cmpi .eq 4#32 0#32 = 0#1 from by decide, show IntOp.cmpi .eq 4#32 1#32 = 0#1 from by decide,
    show IntOp.cmpi .eq 4#32 2#32 = 0#1 from by decide, show IntOp.cmpi .eq 4#32 3#32 = 0#1 from by decide,
    show IntOp.cmpi .eq 4#32 4#32 = 1#1 from by decide]
  simp only [select_one, select_zero, wZero_eq, add_zero, zero_add]

/-- The row at lane l: the first three totals as given, the fourth the total of c / v82 and the fifth the total of
    v21 + v22 over the block, mixed by the lane number. -/
theorem pay24_lane (v21 v22 v82 : FVec Ideal S512x512 .f32) (v67 v73 v81 cst_30 : Ideal .f32) (l : Fin 128) :
    k0_pay24 v21 v22 v67 v73 v81 v82 cst_30 (ix2 (0 : Fin 1) l)
      = laneMix (BitVec.ofNat 32 l.val) v67 v73 v81 (∑ r : Fin 512, ∑ c : Fin 512, Ideal.div cst_30 (v82 (ix2 r c)))
          (∑ r : Fin 512, ∑ c : Fin 512, (v21 (ix2 r c) + v22 (ix2 r c))) := by
  have hi : iota .tc S1x128 32 [1] iota_S1x128_d1_w32 (ix2 (0 : Fin 1) l) = BitVec.ofNat 32 l.val :=
    iota_single_apply _ _ _ _ _ _
  have h3 := blockTotal_of (divf (broadcast S512x512 cst_30) v82) reduces_S512x512_S512 shapeCasts_S512_S512x1
    reduces_S512x1_S1 shapeCasts_S1_S1x1 inpos_S1x1_p0_0
  have h4 := blockTotal_of (addf v21 v22) reduces_S512x512_S512 shapeCasts_S512_S512x1
    reduces_S512x1_S1 shapeCasts_S1_S1x1 inpos_S1x1_p0_0
  unfold k0_pay24 laneMix
  simp only [addf_apply, select_apply, broadcast_apply, cmpi_apply', hi, h3, h4, divf_apply]
  rfl

/-! ## The five totals -/

section Totals
variable (x0 x1 x2 x3 x4 x5 x6 : Vec Ideal S512x512 .f32)

/-- the total of r1² over the block -/
theorem pay20_eq :
    k0_pay20 (k0_pay12 (F := Ideal) x0 x1 x2) (k0_pay13 (F := Ideal) x0 x1 x2) (k0_pay14 (F := Ideal) x0 x1 x2) (Scalar.ofBits .f32 0x3F800000#32) x3 x5 x4 x6
      = ∑ r : Fin 512, ∑ c : Fin 512, r1 (x0 (ix2 r c)) (x1 (ix2 r c)) (x2 (ix2 r c)) (x3 (ix2 r c)) (x4 (ix2 r c)) (x5 (ix2 r c)) (x6 (ix2 r c)) * r1 (x0 (ix2 r c)) (x1 (ix2 r c)) (x2 (ix2 r c)) (x3 (ix2 r c)) (x4 (ix2 r c)) (x5 (ix2 r c)) (x6 (ix2 r c)) := by
  unfold k0_pay20
  refine (blockTotal_of _ _ _ _ _ _).trans ?_
  refine Finset.sum_congr rfl fun r _ => Finset.sum_congr rfl fun c _ => ?_
  show (k0_pay16 (k0_pay12 (F := Ideal) x0 x1 x2) (k0_pay14 (F := Ideal) x0 x1 x2) (Scalar.ofBits .f32 0x3F800000#32) (ix2 r c) * k0_pay18 (F := Ideal) x3 x5 (ix2 r c)
      + k0_pay17 (k0_pay13 (F := Ideal) x0 x1 x2) (k0_pay14 (F := Ideal) x0 x1 x2) (Scalar.ofBits .f32 0x3F800000#32) (ix2 r c) * k0_pay19 (F := Ideal) x4 x6 (ix2 r c))
    * (k0_pay16 (k0_pay12 (F := Ideal) x0 x1 x2) (k0_pay14 (F := Ideal) x0 x1 x2) (Scalar.ofBits .f32 0x3F800000#32) (ix2 r c) * k0_pay18 (F := Ideal) x3 x5 (ix2 r c)
      + k0_pay17 (k0_pay13 (F := Ideal) x0 x1 x2) (k0_pay14 (F := Ideal) x0 x1 x2) (Scalar.ofBits .f32 0x3F800000#32) (ix2 r c) * k0_pay19 (F := Ideal) x4 x6 (ix2 r c)) = _
  rw [pay16_apply, pay17_apply, pay18_apply, pay19_apply]
  rfl

/-- the total of r2² over the block -/
theorem pay21_eq :
    k0_pay21 (k0_pay12 (F := Ideal) x0 x1 x2) (k0_pay13 (F := Ideal) x0 x1 x2) (k0_pay14 (F := Ideal) x0 x1 x2) (Scalar.ofBits .f32 0x3F800000#32) x3 x5 x4 x6
      = ∑ r : Fin 512, ∑ c : Fin 512, r2 (x0 (ix2 r c)) (x1 (ix2 r c)) (x2 (ix2 r c)) (x3 (ix2 r c)) (x4 (ix2 r c)) (x5 (ix2 r c)) (x6 (ix2 r c)) * r2 (x0 (ix2 r c)) (x1 (ix2 r c)) (x2 (ix2 r c)) (x3 (ix2 r c)) (x4 (ix2 r c)) (x5 (ix2 r c)) (x6 (ix2 r c)) := by
  unfold k0_pay21
  refine (blockTotal_of _ _ _ _ _ _).trans ?_
  refine Finset.sum_congr rfl fun r _ => Finset.sum_congr rfl fun c _ => ?_
  show ((wZero - k0_pay17 (k0_pay13 (F := Ideal) x0 x1 x2) (k0_pay14 (F := Ideal) x0 x1 x2) (Scalar.ofBits .f32 0x3F800000#32) (ix2 r c)) * k0_pay18 (F := Ideal) x3 x5 (ix2 r c)
      + k0_pay16 (k0_pay12 (F := Ideal) x0 x1 x2) (k0_pay14 (F := Ideal) x0 x1 x2) (Scalar.ofBits .f32 0x3F800000#32) (ix2 r c) * k0_pay19 (F := Ideal) x4 x6 (ix2 r c))
    * ((wZero - k0_pay17 (k0_pay13 (F := Ideal) x0 x1 x2) (k0_pay14 (F := Ideal) x0 x1 x2) (Scalar.ofBits .f32 0x3F800000#32) (ix2 r c)) * k0_pay18 (F := Ideal) x3 x5 (ix2 r c)
      + k0_pay16 (k0_pay12 (F := Ideal) x0 x1 x2) (k0_pay14 (F := Ideal) x0 x1 x2) (Scalar.ofBits .f32 0x3F800000#32) (ix2 r c) * k0_pay19 (F := Ideal) x4 x6 (ix2 r c)) = _
  rw [pay16_apply, pay17_apply, pay18_apply, pay19_apply, wZero_eq, zero_sub]
  rfl

/-- the total of 1/√lam1 over the block -/
theorem pay22_eq :
    k0_pay22 (k0_pay8 (F := Ideal) x0 x1 x2) = ∑ r : Fin 512, ∑ c : Fin 512, invSqrt (lam1 (x0 (ix2 r c)) (x1 (ix2 r c)) (x2 (ix2 r c))) := by
  unfold k0_pay22
  refine (blockTotal_of _ _ _ _ _ _).trans ?_
  refine Finset.sum_congr rfl fun r _ => Finset.sum_congr rfl fun c _ => ?_
  show Ideal.div wOne (Ideal.sqrt (k0_pay8 (F := Ideal) x0 x1 x2 (ix2 r c))) = _
  rw [pay8_apply]
  rfl

theorem contrib_lane0 :
    contrib (F := Ideal) x0 x1 x2 x3 x4 x5 x6 (ix2 (0 : Fin 1) (0 : Fin 128))
      = ∑ r : Fin 512, ∑ c : Fin 512, r1 (x0 (ix2 r c)) (x1 (ix2 r c)) (x2 (ix2 r c)) (x3 (ix2 r c)) (x4 (ix2 r c)) (x5 (ix2 r c)) (x6 (ix2 r c)) * r1 (x0 (ix2 r c)) (x1 (ix2 r c)) (x2 (ix2 r c)) (x3 (ix2 r c)) (x4 (ix2 r c)) (x5 (ix2 r c)) (x6 (ix2 r c)) := by
  unfold contrib
  rw [pay24_lane, show BitVec.ofNat 32 (0 : Fin 128).val = 0#32 from rfl, laneMix_0, pay20_eq]

theorem contrib_lane1 :
    contrib (F := Ideal) x0 x1 x2 x3 x4 x5 x6 (ix2 (0 : Fin 1) (1 : Fin 128))
      = ∑ r : Fin 512, ∑ c : Fin 512, r2 (x0 (ix2 r c)) (x1 (ix2 r c)) (x2 (ix2 r c)) (x3 (ix2 r c)) (x4 (ix2 r c)) (x5 (ix2 r c)) (x6 (ix2 r c)) * r2 (x0 (ix2 r c)) (x1 (ix2 r c)) (x2 (ix2 r c)) (x3 (ix2 r c)) (x4 (ix2 r c)) (x5 (ix2 r c)) (x6 (ix2 r c)) := by
  unfold contrib
  rw [pay24_lane, show BitVec.ofNat 32 (1 : Fin 128).val = 1#32 from rfl, laneMix_1, pay21_eq]

theorem contrib_lane2 :
    contrib (F := Ideal) x0 x1 x2 x3 x4 x5 x6 (ix2 (0 : Fin 1) (2 : Fin 128))
      = ∑ r : Fin 512, ∑ c : Fin 512, invSqrt (lam1 (x0 (ix2 r c)) (x1 (ix2 r c)) (x2 (ix2 r c))) := by
  unfold contrib
  rw [pay24_lane, show BitVec.ofNat 32 (2 : Fin 128).val = 2#32 from rfl, laneMix_2, pay22_eq]

theorem contrib_lane3 :
    contrib (F := Ideal) x0 x1 x2 x3 x4 x5 x6 (ix2 (0 : Fin 1) (3 : Fin 128))
      = ∑ r : Fin 512, ∑ c : Fin 512, invSqrt (lam2 (x0 (ix2 r c)) (x1 (ix2 r c)) (x2 (ix2 r c))) := by
  unfold contrib
  rw [pay24_lane, show BitVec.ofNat 32 (3 : Fin 128).val = 3#32 from rfl, laneMix_3]
  refine Finset.sum_congr rfl fun r _ => Finset.sum_congr rfl fun c _ => ?_
  show Ideal.div wOne (Ideal.sqrt (k0_pay9 (F := Ideal) x0 x1 x2 (ix2 r c))) = _
  rw [pay9_apply]
  rfl

theorem contrib_lane4 :
    contrib (F := Ideal) x0 x1 x2 x3 x4 x5 x6 (ix2 (0 : Fin 1) (4 : Fin 128))
      = ∑ r : Fin 512, ∑ c : Fin 512, (lam1 (x0 (ix2 r c)) (x1 (ix2 r c)) (x2 (ix2 r c)) + lam2 (x0 (ix2 r c)) (x1 (ix2 r c)) (x2 (ix2 r c))) := by
  unfold contrib
  rw [pay24_lane, show BitVec.ofNat 32 (4 : Fin 128).val = 4#32 from rfl, laneMix_4]
  refine Finset.sum_congr rfl fun r _ => Finset.sum_congr rfl fun c _ => ?_
  rw [pay8_apply, pay9_apply]

end Totals

end Cert.KernelIdeal.StarValue

end
-- ==== Proof.StarBlocks.lean ====
/-
  The blocks the grid's points read, as planes of the three argument arrays.

  Before the grid runs, seven 4096 × 4096 planes are cut out of the arguments — the matrix entries (0, 0), (0, 1), (1, 1)
  of the 4096 × 4096 × 2 × 2 array and the two coordinates of each 4096 × 4096 × 2 array — each by a unit slice followed
  by a recast that drops the unit axes. A slice read at an index is the array at the index shifted by the offsets; a
  recast reads the index with the same row-major position. So plane k at (i, j) is the argument at (i, j, offsets).

  Point s of the 8 × 8 grid reads, through window w, the 512 × 512 block of plane w at block index (s / 8, s % 8): a
  block's coordinate on an axis is the block index times 512 plus the coordinate inside the block, which is row
  512·(s / 8) + r and column 512·(s % 8) + q of the plane. Hence the seven statements: window w's block at point s, read
  at (r, q), is the named plane of the named argument at that row and column.
-/
import proofs.«144680_j20478404067923_1_alg».proof.Proof.Gen.KernelIdeal.Frame.Runs
import proofs.«144680_j20478404067923_1_alg».proof.Proof.StarSpec
import Idealize.ShloMosaic.Lib.Pipeline.Value
import Idealize.ShloMosaic.Lib.StableHlo.Run
import Idealize.ShloMosaic.Lib.ValueIdx

noncomputable section

namespace Cert.KernelIdeal.StarValue

open Cert.Proof.Star Cert.KernelIdeal Cert.KernelIdeal.Gen Idealize.ShloMosaic Idealize.ShloMosaic.ValueIdx
open Idealize.ShloMosaic.TcCoe Idealize.SL.Sem Idealize.ShloMosaic.StableHlo

section LayoutPlanes
variable {α : Type}

/-- The plane (·, ·, o2, o3) of a 4096 × 4096 × 2 × 2 array: its unit slice at offsets (0, 0, o2, o3) recast to
    4096 × 4096, read at (i, j), is the array at (i, j, o2, o3). -/
theorem plane4_apply (x : S4096x4096x2x2.Idx → α) (o2 o3 : ℕ) (h2 : o2 < 2) (h3 : o3 < 2)
    (h : S4096x4096x2x2.Slices ![0, 0, o2, o3] S4096x4096x1x1) (hc : S4096x4096x1x1.ShapeCasts S4096x4096) (i j : Fin 4096) :
    shapeCast S4096x4096 (extractStridedSlice S4096x4096x1x1 ![0, 0, o2, o3] x h) hc (ix2 i j)
      = x (ix4 i j (⟨o2, h2⟩ : Fin 2) (⟨o3, h3⟩ : Fin 2)) := by
  refine (shapeCast_apply _ hc (ix2 i j) (ix4 i j (⟨0, Nat.one_pos⟩ : Fin 1) (⟨0, Nat.one_pos⟩ : Fin 1)) ?_).trans ?_
  · rewrite [Shape.rowMajor_val_four, Shape.rowMajor_val_two]
    show ((i.val * 4096 + j.val) * 1 + 0) * 1 + 0 = i.val * 4096 + j.val
    omega
  · exact extractStridedSlice_apply _ x h _ (ix4 i j (⟨o2, h2⟩ : Fin 2) (⟨o3, h3⟩ : Fin 2)) (fun a => match a with
      | ⟨0, _⟩ => by show i.val = 0 + i.val; omega
      | ⟨1, _⟩ => by show j.val = 0 + j.val; omega
      | ⟨2, _⟩ => by show o2 = o2 + 0; omega
      | ⟨3, _⟩ => by show o3 = o3 + 0; omega)

/-- The plane (·, ·, o2) of a 4096 × 4096 × 2 array, the same way. -/
theorem plane3_apply (x : S4096x4096x2.Idx → α) (o2 : ℕ) (h2 : o2 < 2)
    (h : S4096x4096x2.Slices ![0, 0, o2] S4096x4096x1) (hc : S4096x4096x1.ShapeCasts S4096x4096) (i j : Fin 4096) :
    shapeCast S4096x4096 (extractStridedSlice S4096x4096x1 ![0, 0, o2] x h) hc (ix2 i j)
      = x (ix3 i j (⟨o2, h2⟩ : Fin 2)) := by
  refine (shapeCast_apply _ hc (ix2 i j) (ix3 i j (⟨0, Nat.one_pos⟩ : Fin 1)) ?_).trans ?_
  · rewrite [Shape.rowMajor_val_three, Shape.rowMajor_val_two]
    show (i.val * 4096 + j.val) * 1 + 0 = i.val * 4096 + j.val
    omega
  · exact extractStridedSlice_apply _ x h _ (ix3 i j (⟨o2, h2⟩ : Fin 2)) (fun a => match a with
      | ⟨0, _⟩ => by show i.val = 0 + i.val; omega
      | ⟨1, _⟩ => by show j.val = 0 + j.val; omega
      | ⟨2, _⟩ => by show o2 = o2 + 0; omega)

end LayoutPlanes

variable (m : (ℓ : Loc nD τ sig) → Buf (Elt Ideal) ℓ)

/-! ## The seven planes as the grid finds them -/

/-- Plane 0 (entry (0, 0) of the matrix) is the slice at [0, 0, 0, 0] recast to 4096 × 4096. -/
theorem V_main_v1 (c : Dev nD) : (V m c main_v1 : S4096x4096.Idx → EReal)
    = shapeCast S4096x4096 (extractStridedSlice S4096x4096x1x1 ![0, 0, 0, 0] (m ((c.tc : Thread nD τ).loc main_arg1))
        slices_S4096x4096x2x2_S4096x4096x1x1_0_0_0_0) shapeCasts_S4096x4096x1x1_S4096x4096 := by
  show StableHlo.after hostOps0 (fun b => m (c, b)) (Proc.devRef .tc main_v1) = _
  after_results
  rfl

/-- Read at (i, j): entry (0, 0) of the matrix. -/
theorem V_main_v1_apply (c : Dev nD) (i j : Fin 4096) :
    (V m c main_v1 : S4096x4096.Idx → EReal) (ix2 i j) = pa (m ((c.tc : Thread nD τ).loc main_arg1)) i j := by
  rw [V_main_v1]
  exact plane4_apply _ 0 0 (by omega) (by omega) _ _ i j

/-- Plane 1 (entry (0, 1) of the matrix) is the slice at [0, 0, 0, 1] recast to 4096 × 4096. -/
theorem V_main_v3 (c : Dev nD) : (V m c main_v3 : S4096x4096.Idx → EReal)
    = shapeCast S4096x4096 (extractStridedSlice S4096x4096x1x1 ![0, 0, 0, 1] (m ((c.tc : Thread nD τ).loc main_arg1))
        slices_S4096x4096x2x2_S4096x4096x1x1_0_0_0_1) shapeCasts_S4096x4096x1x1_S4096x4096 := by
  show StableHlo.after hostOps0 (fun b => m (c, b)) (Proc.devRef .tc main_v3) = _
  after_results
  rfl

/-- Read at (i, j): entry (0, 1) of the matrix. -/
theorem V_main_v3_apply (c : Dev nD) (i j : Fin 4096) :
    (V m c main_v3 : S4096x4096.Idx → EReal) (ix2 i j) = pb (m ((c.tc : Thread nD τ).loc main_arg1)) i j := by
  rw [V_main_v3]
  exact plane4_apply _ 0 1 (by omega) (by omega) _ _ i j

/-- Plane 2 (entry (1, 1) of the matrix) is the slice at [0, 0, 1, 1] recast to 4096 × 4096. -/
theorem V_main_v5 (c : Dev nD) : (V m c main_v5 : S4096x4096.Idx → EReal)
    = shapeCast S4096x4096 (extractStridedSlice S4096x4096x1x1 ![0, 0, 1, 1] (m ((c.tc : Thread nD τ).loc main_arg1))
        slices_S4096x4096x2x2_S4096x4096x1x1_0_0_1_1) shapeCasts_S4096x4096x1x1_S4096x4096 := by
  show StableHlo.after hostOps0 (fun b => m (c, b)) (Proc.devRef .tc main_v5) = _
  after_results
  rfl

/-- Read at (i, j): entry (1, 1) of the matrix. -/
theorem V_main_v5_apply (c : Dev nD) (i j : Fin 4096) :
    (V m c main_v5 : S4096x4096.Idx → EReal) (ix2 i j) = pd (m ((c.tc : Thread nD τ).loc main_arg1)) i j := by
  rw [V_main_v5]
  exact plane4_apply _ 1 1 (by omega) (by omega) _ _ i j

/-- Plane 3 (coordinate 0 of the predicted point) is the slice at [0, 0, 0] recast to 4096 × 4096. -/
theorem V_main_v7 (c : Dev nD) : (V m c main_v7 : S4096x4096.Idx → EReal)
    = shapeCast S4096x4096 (extractStridedSlice S4096x4096x1 ![0, 0, 0] (m ((c.tc : Thread nD τ).loc main_arg0))
        slices_S4096x4096x2_S4096x4096x1_0_0_0) shapeCasts_S4096x4096x1_S4096x4096 := by
  show StableHlo.after hostOps0 (fun b => m (c, b)) (Proc.devRef .tc main_v7) = _
  after_results
  rfl

/-- Read at (i, j): coordinate 0 of the predicted point. -/
theorem V_main_v7_apply (c : Dev nD) (i j : Fin 4096) :
    (V m c main_v7 : S4096x4096.Idx → EReal) (ix2 i j) = p0 (m ((c.tc : Thread nD τ).loc main_arg0)) i j := by
  rw [V_main_v7]
  exact plane3_apply _ 0 (by omega) _ _ i j

/-- Plane 4 (coordinate 1 of the predicted point) is the slice at [0, 0, 1] recast to 4096 × 4096. -/
theorem V_main_v9 (c : Dev nD) : (V m c main_v9 : S4096x4096.Idx → EReal)
    = shapeCast S4096x4096 (extractStridedSlice S4096x4096x1 ![0, 0, 1] (m ((c.tc : Thread nD τ).loc main_arg0))
        slices_S4096x4096x2_S4096x4096x1_0_0_1) shapeCasts_S4096x4096x1_S4096x4096 := by
  show StableHlo.after hostOps0 (fun b => m (c, b)) (Proc.devRef .tc main_v9) = _
  after_results
  rfl

/-- Read at (i, j): coordinate 1 of the predicted point. -/
theorem V_main_v9_apply (c : Dev nD) (i j : Fin 4096) :
    (V m c main_v9 : S4096x4096.Idx → EReal) (ix2 i j) = p1 (m ((c.tc : Thread nD τ).loc main_arg0)) i j := by
  rw [V_main_v9]
  exact plane3_apply _ 1 (by omega) _ _ i j

/-- Plane 5 (coordinate 0 of the target point) is the slice at [0, 0, 0] recast to 4096 × 4096. -/
theorem V_main_v11 (c : Dev nD) : (V m c main_v11 : S4096x4096.Idx → EReal)
    = shapeCast S4096x4096 (extractStridedSlice S4096x4096x1 ![0, 0, 0] (m ((c.tc : Thread nD τ).loc main_arg2))
        slices_S4096x4096x2_S4096x4096x1_0_0_0) shapeCasts_S4096x4096x1_S4096x4096 := by
  show StableHlo.after hostOps0 (fun b => m (c, b)) (Proc.devRef .tc main_v11) = _
  after_results
  rfl

/-- Read at (i, j): coordinate 0 of the target point. -/
theorem V_main_v11_apply (c : Dev nD) (i j : Fin 4096) :
    (V m c main_v11 : S4096x4096.Idx → EReal) (ix2 i j) = p0 (m ((c.tc : Thread nD τ).loc main_arg2)) i j := by
  rw [V_main_v11]
  exact plane3_apply _ 0 (by omega) _ _ i j

/-- Plane 6 (coordinate 1 of the target point) is the slice at [0, 0, 1] recast to 4096 × 4096. -/
theorem V_main_v13 (c : Dev nD) : (V m c main_v13 : S4096x4096.Idx → EReal)
    = shapeCast S4096x4096 (extractStridedSlice S4096x4096x1 ![0, 0, 1] (m ((c.tc : Thread nD τ).loc main_arg2))
        slices_S4096x4096x2_S4096x4096x1_0_0_1) shapeCasts_S4096x4096x1_S4096x4096 := by
  show StableHlo.after hostOps0 (fun b => m (c, b)) (Proc.devRef .tc main_v13) = _
  after_results
  rfl

/-- Read at (i, j): coordinate 1 of the target point. -/
theorem V_main_v13_apply (c : Dev nD) (i j : Fin 4096) :
    (V m c main_v13 : S4096x4096.Idx → EReal) (ix2 i j) = p1 (m ((c.tc : Thread nD τ).loc main_arg2)) i j := by
  rw [V_main_v13]
  exact plane3_apply _ 1 (by omega) _ _ i j

/-! ## The windows' blocks -/

/-- Window 0's block at point s, at (r, q): entry (0, 0) of the matrix at row 512·(s / 8) + r, column 512·(s % 8) + q. -/
theorem iblk0_apply (c : Dev nD) (s : ℕ) (hs : s < 64) (hs' : s < cfg0.N) (r q : Fin 512) :
    iblk m c 0 ⟨s, hs'⟩ (ix2 r q) = pa (m ((c.tc : Thread nD τ).loc main_arg1)) (rowOf ⟨s, hs⟩ r) (colOf ⟨s, hs⟩ q) := by
  have hi : ∀ t : Fin cfg0.N, win0_0.index t 0 = t.val / 8 ∧ win0_0.index t 1 = t.val % 8 :=
    (by decide +kernel : ∀ t : Fin grid0.N, _)
  unfold iblk
  rw [View.read_apply]
  show V m c main_v1 (((cfg0.win 0).blk ⟨s, hs'⟩).view.emb (ix2 r q)) = _
  have hk : ((cfg0.win 0).blk ⟨s, hs'⟩).view.emb (ix2 r q) = ix2 (rowOf ⟨s, hs⟩ r) (colOf ⟨s, hs⟩ q) := by
    funext a
    apply Fin.ext
    match a with
    | ⟨0, _⟩ => show win0_0.index ⟨s, hs'⟩ 0 * 512 + 1 * r.val = 512 * (s / 8) + r.val; rw [(hi _).1]; show s / 8 * 512 + 1 * r.val = 512 * (s / 8) + r.val; omega
    | ⟨1, _⟩ => show win0_0.index ⟨s, hs'⟩ 1 * 512 + 1 * q.val = 512 * (s % 8) + q.val; rw [(hi _).2]; show s % 8 * 512 + 1 * q.val = 512 * (s % 8) + q.val; omega
  rw [hk]
  exact V_main_v1_apply m c _ _

/-- Window 1's block at point s, at (r, q): entry (0, 1) of the matrix at row 512·(s / 8) + r, column 512·(s % 8) + q. -/
theorem iblk1_apply (c : Dev nD) (s : ℕ) (hs : s < 64) (hs' : s < cfg0.N) (r q : Fin 512) :
    iblk m c 1 ⟨s, hs'⟩ (ix2 r q) = pb (m ((c.tc : Thread nD τ).loc main_arg1)) (rowOf ⟨s, hs⟩ r) (colOf ⟨s, hs⟩ q) := by
  have hi : ∀ t : Fin cfg0.N, win0_1.index t 0 = t.val / 8 ∧ win0_1.index t 1 = t.val % 8 :=
    (by decide +kernel : ∀ t : Fin grid0.N, _)
  unfold iblk
  rw [View.read_apply]
  show V m c main_v3 (((cfg0.win 1).blk ⟨s, hs'⟩).view.emb (ix2 r q)) = _
  have hk : ((cfg0.win 1).blk ⟨s, hs'⟩).view.emb (ix2 r q) = ix2 (rowOf ⟨s, hs⟩ r) (colOf ⟨s, hs⟩ q) := by
    funext a
    apply Fin.ext
    match a with
    | ⟨0, _⟩ => show win0_1.index ⟨s, hs'⟩ 0 * 512 + 1 * r.val = 512 * (s / 8) + r.val; rw [(hi _).1]; show s / 8 * 512 + 1 * r.val = 512 * (s / 8) + r.val; omega
    | ⟨1, _⟩ => show win0_1.index ⟨s, hs'⟩ 1 * 512 + 1 * q.val = 512 * (s % 8) + q.val; rw [(hi _).2]; show s % 8 * 512 + 1 * q.val = 512 * (s % 8) + q.val; omega
  rw [hk]
  exact V_main_v3_apply m c _ _

/-- Window 2's block at point s, at (r, q): entry (1, 1) of the matrix at row 512·(s / 8) + r, column 512·(s % 8) + q. -/
theorem iblk2_apply (c : Dev nD) (s : ℕ) (hs : s < 64) (hs' : s < cfg0.N) (r q : Fin 512) :
    iblk m c 2 ⟨s, hs'⟩ (ix2 r q) = pd (m ((c.tc : Thread nD τ).loc main_arg1)) (rowOf ⟨s, hs⟩ r) (colOf ⟨s, hs⟩ q) := by
  have hi : ∀ t : Fin cfg0.N, win0_2.index t 0 = t.val / 8 ∧ win0_2.index t 1 = t.val % 8 :=
    (by decide +kernel : ∀ t : Fin grid0.N, _)
  unfold iblk
  rw [View.read_apply]
  show V m c main_v5 (((cfg0.win 2).blk ⟨s, hs'⟩).view.emb (ix2 r q)) = _
  have hk : ((cfg0.win 2).blk ⟨s, hs'⟩).view.emb (ix2 r q) = ix2 (rowOf ⟨s, hs⟩ r) (colOf ⟨s, hs⟩ q) := by
    funext a
    apply Fin.ext
    match a with
    | ⟨0, _⟩ => show win0_2.index ⟨s, hs'⟩ 0 * 512 + 1 * r.val = 512 * (s / 8) + r.val; rw [(hi _).1]; show s / 8 * 512 + 1 * r.val = 512 * (s / 8) + r.val; omega
    | ⟨1, _⟩ => show win0_2.index ⟨s, hs'⟩ 1 * 512 + 1 * q.val = 512 * (s % 8) + q.val; rw [(hi _).2]; show s % 8 * 512 + 1 * q.val = 512 * (s % 8) + q.val; omega
  rw [hk]
  exact V_main_v5_apply m c _ _

/-- Window 3's block at point s, at (r, q): coordinate 0 of the predicted point at row 512·(s / 8) + r, column 512·(s % 8) + q. -/
theorem iblk3_apply (c : Dev nD) (s : ℕ) (hs : s < 64) (hs' : s < cfg0.N) (r q : Fin 512) :
    iblk m c 3 ⟨s, hs'⟩ (ix2 r q) = p0 (m ((c.tc : Thread nD τ).loc main_arg0)) (rowOf ⟨s, hs⟩ r) (colOf ⟨s, hs⟩ q) := by
  have hi : ∀ t : Fin cfg0.N, win0_3.index t 0 = t.val / 8 ∧ win0_3.index t 1 = t.val % 8 :=
    (by decide +kernel : ∀ t : Fin grid0.N, _)
  unfold iblk
  rw [View.read_apply]
  show V m c main_v7 (((cfg0.win 3).blk ⟨s, hs'⟩).view.emb (ix2 r q)) = _
  have hk : ((cfg0.win 3).blk ⟨s, hs'⟩).view.emb (ix2 r q) = ix2 (rowOf ⟨s, hs⟩ r) (colOf ⟨s, hs⟩ q) := by
    funext a
    apply Fin.ext
    match a with
    | ⟨0, _⟩ => show win0_3.index ⟨s, hs'⟩ 0 * 512 + 1 * r.val = 512 * (s / 8) + r.val; rw [(hi _).1]; show s / 8 * 512 + 1 * r.val = 512 * (s / 8) + r.val; omega
    | ⟨1, _⟩ => show win0_3.index ⟨s, hs'⟩ 1 * 512 + 1 * q.val = 512 * (s % 8) + q.val; rw [(hi _).2]; show s % 8 * 512 + 1 * q.val = 512 * (s % 8) + q.val; omega
  rw [hk]
  exact V_main_v7_apply m c _ _

/-- Window 4's block at point s, at (r, q): coordinate 1 of the predicted point at row 512·(s / 8) + r, column 512·(s % 8) + q. -/
theorem iblk4_apply (c : Dev nD) (s : ℕ) (hs : s < 64) (hs' : s < cfg0.N) (r q : Fin 512) :
    iblk m c 4 ⟨s, hs'⟩ (ix2 r q) = p1 (m ((c.tc : Thread nD τ).loc main_arg0)) (rowOf ⟨s, hs⟩ r) (colOf ⟨s, hs⟩ q) := by
  have hi : ∀ t : Fin cfg0.N, win0_4.index t 0 = t.val / 8 ∧ win0_4.index t 1 = t.val % 8 :=
    (by decide +kernel : ∀ t : Fin grid0.N, _)
  unfold iblk
  rw [View.read_apply]
  show V m c main_v9 (((cfg0.win 4).blk ⟨s, hs'⟩).view.emb (ix2 r q)) = _
  have hk : ((cfg0.win 4).blk ⟨s, hs'⟩).view.emb (ix2 r q) = ix2 (rowOf ⟨s, hs⟩ r) (colOf ⟨s, hs⟩ q) := by
    funext a
    apply Fin.ext
    match a with
    | ⟨0, _⟩ => show win0_4.index ⟨s, hs'⟩ 0 * 512 + 1 * r.val = 512 * (s / 8) + r.val; rw [(hi _).1]; show s / 8 * 512 + 1 * r.val = 512 * (s / 8) + r.val; omega
    | ⟨1, _⟩ => show win0_4.index ⟨s, hs'⟩ 1 * 512 + 1 * q.val = 512 * (s % 8) + q.val; rw [(hi _).2]; show s % 8 * 512 + 1 * q.val = 512 * (s % 8) + q.val; omega
  rw [hk]
  exact V_main_v9_apply m c _ _

/-- Window 5's block at point s, at (r, q): coordinate 0 of the target point at row 512·(s / 8) + r, column 512·(s % 8) + q. -/
theorem iblk5_apply (c : Dev nD) (s : ℕ) (hs : s < 64) (hs' : s < cfg0.N) (r q : Fin 512) :
    iblk m c 5 ⟨s, hs'⟩ (ix2 r q) = p0 (m ((c.tc : Thread nD τ).loc main_arg2)) (rowOf ⟨s, hs⟩ r) (colOf ⟨s, hs⟩ q) := by
  have hi : ∀ t : Fin cfg0.N, win0_5.index t 0 = t.val / 8 ∧ win0_5.index t 1 = t.val % 8 :=
    (by decide +kernel : ∀ t : Fin grid0.N, _)
  unfold iblk
  rw [View.read_apply]
  show V m c main_v11 (((cfg0.win 5).blk ⟨s, hs'⟩).view.emb (ix2 r q)) = _
  have hk : ((cfg0.win 5).blk ⟨s, hs'⟩).view.emb (ix2 r q) = ix2 (rowOf ⟨s, hs⟩ r) (colOf ⟨s, hs⟩ q) := by
    funext a
    apply Fin.ext
    match a with
    | ⟨0, _⟩ => show win0_5.index ⟨s, hs'⟩ 0 * 512 + 1 * r.val = 512 * (s / 8) + r.val; rw [(hi _).1]; show s / 8 * 512 + 1 * r.val = 512 * (s / 8) + r.val; omega
    | ⟨1, _⟩ => show win0_5.index ⟨s, hs'⟩ 1 * 512 + 1 * q.val = 512 * (s % 8) + q.val; rw [(hi _).2]; show s % 8 * 512 + 1 * q.val = 512 * (s % 8) + q.val; omega
  rw [hk]
  exact V_main_v11_apply m c _ _

/-- Window 6's block at point s, at (r, q): coordinate 1 of the target point at row 512·(s / 8) + r, column 512·(s % 8) + q. -/
theorem iblk6_apply (c : Dev nD) (s : ℕ) (hs : s < 64) (hs' : s < cfg0.N) (r q : Fin 512) :
    iblk m c 6 ⟨s, hs'⟩ (ix2 r q) = p1 (m ((c.tc : Thread nD τ).loc main_arg2)) (rowOf ⟨s, hs⟩ r) (colOf ⟨s, hs⟩ q) := by
  have hi : ∀ t : Fin cfg0.N, win0_6.index t 0 = t.val / 8 ∧ win0_6.index t 1 = t.val % 8 :=
    (by decide +kernel : ∀ t : Fin grid0.N, _)
  unfold iblk
  rw [View.read_apply]
  show V m c main_v13 (((cfg0.win 6).blk ⟨s, hs'⟩).view.emb (ix2 r q)) = _
  have hk : ((cfg0.win 6).blk ⟨s, hs'⟩).view.emb (ix2 r q) = ix2 (rowOf ⟨s, hs⟩ r) (colOf ⟨s, hs⟩ q) := by
    funext a
    apply Fin.ext
    match a with
    | ⟨0, _⟩ => show win0_6.index ⟨s, hs'⟩ 0 * 512 + 1 * r.val = 512 * (s / 8) + r.val; rw [(hi _).1]; show s / 8 * 512 + 1 * r.val = 512 * (s / 8) + r.val; omega
    | ⟨1, _⟩ => show win0_6.index ⟨s, hs'⟩ 1 * 512 + 1 * q.val = 512 * (s % 8) + q.val; rw [(hi _).2]; show s % 8 * 512 + 1 * q.val = 512 * (s % 8) + q.val; omega
  rw [hk]
  exact V_main_v13_apply m c _ _

end Cert.KernelIdeal.StarValue

end
-- ==== Proof.StarKernel.lean ====
/-
  The kernel program's value on the extended reals: the loss of StarSpec.

  The accumulated row is, lane by lane, the zero word plus the sum over the 64 grid points of the point's contribution
  (`acc_apply`: the additions are taken in point order, which a sum in a commutative monoid does not see). Lane k ≤ 4 of a
  point's contribution is the total over the point's 512 × 512 tile of one of the five per-landmark quantities, read off
  the argument arrays (`lane_total`'s hypothesis), and the 64 tiles partition the 4096 × 4096 landmarks, so the row's
  lanes 0 … 4 are the five totals D1, D2, S1, S2, T. The host lines after the region read those five lanes and
  combine them (`tailOf_apply`), which is the loss.
-/
import proofs.«144680_j20478404067923_1_alg».proof.Proof.StarTail
import proofs.«144680_j20478404067923_1_alg».proof.Proof.StarLanes
import proofs.«144680_j20478404067923_1_alg».proof.Proof.StarBlocks
import proofs.«144680_j20478404067923_1_alg».proof.Proof.StarSums
import proofs.«144680_j20478404067923_1_alg».proof.Proof.StarAlgebra

noncomputable section

open scoped BigOperators
open Idealize.ShloMosaic Idealize.ShloMosaic.TcCoe Idealize.SL.Sem Idealize.ShloMosaic.ValueIdx
open Idealize.ShloMosaic.Pipeline (Dat)

namespace Cert.KernelIdeal.StarValue

open Cert.KernelIdeal Cert.KernelIdeal.Gen Cert.Proof.Star

variable (m : (ℓ : Loc nD τ sig) → Buf (Elt Ideal) ℓ)

/-! ## The accumulator as a sum -/

/-- Adding a contribution v to the row w, lane by lane. -/
theorem pay1_apply (v : FVec Ideal S1x128 .f32) (w : Vec Ideal S1x128 .f32) (y : S1x128.Idx) :
    k0_pay1 v w y = w y + v y := by
  unfold k0_pay1
  rw [shapeCast_self]
  rfl

/-- The reset row is the zero word in every lane. -/
theorem pay2_apply (y : S1x128.Idx) : k0_pay2 (F := Ideal) y = wZero := by
  unfold k0_pay2
  rw [shapeCast_self]
  rfl

/-- After point n the accumulator holds, in each lane, the zero word plus the contributions of points 0 … n. -/
theorem acc_apply (c : Dev nD) (y : S1x128.Idx) : ∀ (n : ℕ) (h : n < cfg0.N),
    acc m c n h y = wZero + ∑ s ∈ Finset.range (n + 1), (if hs : s < cfg0.N then contribAt m c ⟨s, hs⟩ y else 0)
  | 0, h => by
    show k0_pay1 (contribAt m c ⟨0, h⟩) (k0_pay2 (F := Ideal)) y = _
    rw [pay1_apply, pay2_apply, Finset.sum_range_one, dif_pos h]
  | n + 1, h => by
    show k0_pay1 (contribAt m c ⟨n + 1, h⟩) (acc m c n (Nat.lt_of_succ_lt h)) y = _
    rw [pay1_apply, acc_apply c y n, Finset.sum_range_succ _ (n + 1), dif_pos h, add_assoc]

/-- A lane of the result row whose contribution at every point is the total of g over the point's tile holds the total
    of g over all landmarks. -/
theorem lane_total (c : Dev nD) (l : Fin 128) (g : Fin 4096 → Fin 4096 → EReal)
    (hg : ∀ (s : ℕ) (hs : s < 64) (hs' : s < cfg0.N), contribAt m c ⟨s, hs'⟩ (ix2 (0 : Fin 1) l)
      = ∑ r : Fin 512, ∑ q : Fin 512, g (rowOf ⟨s, hs⟩ r) (colOf ⟨s, hs⟩ q)) :
    result m c (ix2 (0 : Fin 1) l) = ∑ i : Fin 4096, ∑ j : Fin 4096, g i j := by
  have hN : cfg0.N = 64 := N_0
  show acc m c 63 _ (ix2 (0 : Fin 1) l) = _
  rw [acc_apply, wZero_eq, zero_add, ← sum_tiles g]
  show ∑ s ∈ Finset.range 64, (if hs : s < cfg0.N then contribAt m c ⟨s, hs⟩ (ix2 (0 : Fin 1) l) else 0) = _
  rw [← Fin.sum_univ_eq_sum_range (fun s => if hs : s < cfg0.N then contribAt m c ⟨s, hs⟩ (ix2 (0 : Fin 1) l) else 0) 64]
  refine Finset.sum_congr rfl fun s _ => ?_
  have hs' : s.val < cfg0.N := by rw [hN]; exact s.isLt
  rw [dif_pos hs']
  exact hg s.val s.isLt hs'

/-! ## The five lanes -/

section Lanes

variable (c : Dev nD)

theorem result_lane0 : result m c (ix2 (0 : Fin 1) (0 : Fin 128)) = Cert.Proof.Star.D1 (m ((c.tc : Thread nD τ).loc main_arg0)) (m ((c.tc : Thread nD τ).loc main_arg1)) (m ((c.tc : Thread nD τ).loc main_arg2)) := by
  refine lane_total m c 0 (sq1At (m ((c.tc : Thread nD τ).loc main_arg0)) (m ((c.tc : Thread nD τ).loc main_arg1)) (m ((c.tc : Thread nD τ).loc main_arg2))) fun s hs hs' => ?_
  refine (contrib_lane0 (iblk m c 0 ⟨s, hs'⟩) (iblk m c 1 ⟨s, hs'⟩) (iblk m c 2 ⟨s, hs'⟩) (iblk m c 3 ⟨s, hs'⟩)
    (iblk m c 4 ⟨s, hs'⟩) (iblk m c 5 ⟨s, hs'⟩) (iblk m c 6 ⟨s, hs'⟩)).trans ?_
  refine Finset.sum_congr rfl fun r _ => Finset.sum_congr rfl fun q _ => ?_
  rw [iblk0_apply m c s hs hs' r q, iblk1_apply m c s hs hs' r q, iblk2_apply m c s hs hs' r q,
    iblk3_apply m c s hs hs' r q, iblk4_apply m c s hs hs' r q, iblk5_apply m c s hs hs' r q, iblk6_apply m c s hs hs' r q]
  rfl

theorem result_lane1 : result m c (ix2 (0 : Fin 1) (1 : Fin 128)) = Cert.Proof.Star.D2 (m ((c.tc : Thread nD τ).loc main_arg0)) (m ((c.tc : Thread nD τ).loc main_arg1)) (m ((c.tc : Thread nD τ).loc main_arg2)) := by
  refine lane_total m c 1 (sq2At (m ((c.tc : Thread nD τ).loc main_arg0)) (m ((c.tc : Thread nD τ).loc main_arg1)) (m ((c.tc : Thread nD τ).loc main_arg2))) fun s hs hs' => ?_
  refine (contrib_lane1 (iblk m c 0 ⟨s, hs'⟩) (iblk m c 1 ⟨s, hs'⟩) (iblk m c 2 ⟨s, hs'⟩) (iblk m c 3 ⟨s, hs'⟩)
    (iblk m c 4 ⟨s, hs'⟩) (iblk m c 5 ⟨s, hs'⟩) (iblk m c 6 ⟨s, hs'⟩)).trans ?_
  refine Finset.sum_congr rfl fun r _ => Finset.sum_congr rfl fun q _ => ?_
  rw [iblk0_apply m c s hs hs' r q, iblk1_apply m c s hs hs' r q, iblk2_apply m c s hs hs' r q,
    iblk3_apply m c s hs hs' r q, iblk4_apply m c s hs hs' r q, iblk5_apply m c s hs hs' r q, iblk6_apply m c s hs hs' r q]
  rfl

theorem result_lane2 : result m c (ix2 (0 : Fin 1) (2 : Fin 128)) = Cert.Proof.Star.S1 (m ((c.tc : Thread nD τ).loc main_arg1)) := by
  refine lane_total m c 2 (u1At (m ((c.tc : Thread nD τ).loc main_arg1))) fun s hs hs' => ?_
  refine (contrib_lane2 (iblk m c 0 ⟨s, hs'⟩) (iblk m c 1 ⟨s, hs'⟩) (iblk m c 2 ⟨s, hs'⟩) (iblk m c 3 ⟨s, hs'⟩)
    (iblk m c 4 ⟨s, hs'⟩) (iblk m c 5 ⟨s, hs'⟩) (iblk m c 6 ⟨s, hs'⟩)).trans ?_
  refine Finset.sum_congr rfl fun r _ => Finset.sum_congr rfl fun q _ => ?_
  rw [iblk0_apply m c s hs hs' r q, iblk1_apply m c s hs hs' r q, iblk2_apply m c s hs hs' r q]
  rfl

theorem result_lane3 : result m c (ix2 (0 : Fin 1) (3 : Fin 128)) = Cert.Proof.Star.S2 (m ((c.tc : Thread nD τ).loc main_arg1)) := by
  refine lane_total m c 3 (u2At (m ((c.tc : Thread nD τ).loc main_arg1))) fun s hs hs' => ?_
  refine (contrib_lane3 (iblk m c 0 ⟨s, hs'⟩) (iblk m c 1 ⟨s, hs'⟩) (iblk m c 2 ⟨s, hs'⟩) (iblk m c 3 ⟨s, hs'⟩)
    (iblk m c 4 ⟨s, hs'⟩) (iblk m c 5 ⟨s, hs'⟩) (iblk m c 6 ⟨s, hs'⟩)).trans ?_
  refine Finset.sum_congr rfl fun r _ => Finset.sum_congr rfl fun q _ => ?_
  rw [iblk0_apply m c s hs hs' r q, iblk1_apply m c s hs hs' r q, iblk2_apply m c s hs hs' r q]
  rfl

theorem result_lane4 : result m c (ix2 (0 : Fin 1) (4 : Fin 128)) = Cert.Proof.Star.T (m ((c.tc : Thread nD τ).loc main_arg1)) := by
  refine lane_total m c 4 (trAt (m ((c.tc : Thread nD τ).loc main_arg1))) fun s hs hs' => ?_
  refine (contrib_lane4 (iblk m c 0 ⟨s, hs'⟩) (iblk m c 1 ⟨s, hs'⟩) (iblk m c 2 ⟨s, hs'⟩) (iblk m c 3 ⟨s, hs'⟩)
    (iblk m c 4 ⟨s, hs'⟩) (iblk m c 5 ⟨s, hs'⟩) (iblk m c 6 ⟨s, hs'⟩)).trans ?_
  refine Finset.sum_congr rfl fun r _ => Finset.sum_congr rfl fun q _ => ?_
  rw [iblk0_apply m c s hs hs' r q, iblk1_apply m c s hs hs' r q, iblk2_apply m c s hs hs' r q]
  rfl

end Lanes

/-! ## The host lines after the region, at an index -/

/-- Lane k of a row, taken as the host does: the row flattened, entry k sliced out, reshaped to a scalar. -/
theorem lane_read (o : Vec Ideal S1x128 .f32) (k : ℕ) (hk : k < 128) (hs : S128.Slices ![k] Cert.KernelIdeal.S1)
    (h1 : S1x128.ShapeCasts S128) (h2 : Cert.KernelIdeal.S1.ShapeCasts S_) (i : S_.Idx) :
    shapeCast S_ (extractStridedSlice Cert.KernelIdeal.S1 ![k] (shapeCast S128 o h1) hs) h2 i = o (ix2 (0 : Fin 1) ⟨k, hk⟩) := by
  rw [shapeCast_apply _ h2 i (ix1 (0 : Fin 1)) (by rw [Shape.rowMajor_val_one]; exact (Fin.val_eq_zero _).trans (Fin.val_eq_zero _).symm)]
  rw [extractStridedSlice_apply ![k] _ hs (ix1 (0 : Fin 1)) (ix1 (⟨k, hk⟩ : Fin 128)) (fun a => by
    match a with
    | ⟨0, _⟩ => rfl)]
  exact shapeCast_apply o h1 (ix1 (⟨k, hk⟩ : Fin 128)) (ix2 (0 : Fin 1) (⟨k, hk⟩ : Fin 128)) (by
    rw [Shape.rowMajor_val_two, Shape.rowMajor_val_one]
    show 0 * 128 + k = k
    omega)

/-- The closed-form combination, at its one index. -/
theorem tailOf_apply (o : Vec Ideal S1x128 .f32) (i : S_.Idx) :
    tailOf (F := Ideal) o i
      = (o (ix2 (0 : Fin 1) (0 : Fin 128)) * (Ideal.div (o (ix2 (0 : Fin 1) (2 : Fin 128))) wCount + wEps)
          + o (ix2 (0 : Fin 1) (1 : Fin 128)) * (Ideal.div (o (ix2 (0 : Fin 1) (3 : Fin 128))) wCount + wEps))
        + wHalf * Ideal.div (o (ix2 (0 : Fin 1) (4 : Fin 128))) wCount := by
  unfold tailOf rowF
  show (shapeCast _ _ _ i * (Ideal.div (shapeCast _ _ _ i) _ + _) + shapeCast _ _ _ i * (Ideal.div (shapeCast _ _ _ i) _ + _))
    + _ * Ideal.div (shapeCast _ _ _ i) _ = _
  rw [lane_read o 0 (by decide), lane_read o 1 (by decide), lane_read o 2 (by decide), lane_read o 3 (by decide),
    lane_read o 4 (by decide)]
  rfl

/-- The kernel program's result is the loss of its three argument arrays. -/
theorem kernel_value (c : Dev nD) :
    tailOf (result m c) = fun _ => loss (m ((c.tc : Thread nD τ).loc main_arg0)) (m ((c.tc : Thread nD τ).loc main_arg1))
      (m ((c.tc : Thread nD τ).loc main_arg2)) := by
  funext i
  rw [tailOf_apply, result_lane0, result_lane1, result_lane2, result_lane3, result_lane4]
  rfl

end Cert.KernelIdeal.StarValue

end
-- ==== Proof.RefValue.lean ====
/-
  The value of the reference program, read one landmark at a time.

  At the ideal instance every pointwise stage of the program is the extended reals' own operation, so each stage at
  landmark (i, j) is a closed expression in the seven planes a = cov[i,j,0,0], b = cov[i,j,0,1], d = cov[i,j,1,1],
  px, py (the prediction) and tx, ty (the target): the mean and the half-difference give the two eigenvalues lam1, lam2,
  the two selects give the eigenvector of lam1 before normalisation, and the residual is projected on it and on its
  normal. The two residual totals are sums over all landmarks started from the zero word; they enter every landmark's
  term (1/√lam1 + ε)·d1 + (1/√lam2 + ε)·d2 + ½·(lam1 + lam2), whose sum over all landmarks, again from the zero word,
  divided by the number of landmarks, is the program's result. This is the mean loss of the specification, element for
  element.
-/
import proofs.«144680_j20478404067923_1_alg».proof.Proof.StarSpec
import proofs.«144680_j20478404067923_1_alg».proof.Proof.RefReadP
import Idealize.ShloMosaic.Lib.ValueIdx
import Idealize.ShloMosaic.Lib.Pipeline.Value
import Idealize.ShloMosaic.PureOps.Ideal.Laws

noncomputable section

open scoped BigOperators

namespace Cert.Proof.StarRef

open Idealize.ShloMosaic Idealize.ShloMosaic.ValueIdx Cert.Proof.Star Cert.ReferenceIdeal.ReadP

variable (x0 : Pts) (x1 : Cov) (x2 : Pts) (i j : Fin 4096)

/-! ## The seven planes: a slice of one entry followed by a reshape reads the argument at that entry -/

theorem plane_a : val_main_v1 (F := Ideal) x1 (ix2 i j) = pa x1 i j := by
  rw [val_main_v1_apply, val_main_v0_apply]
  show x1 _ = x1 (ix4 i j (0 : Fin 2) (0 : Fin 2))
  refine congrArg x1 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl
  | ⟨3, _⟩ => rfl

theorem plane_b : val_main_v3 (F := Ideal) x1 (ix2 i j) = pb x1 i j := by
  rw [val_main_v3_apply, val_main_v2_apply]
  show x1 _ = x1 (ix4 i j (0 : Fin 2) (1 : Fin 2))
  refine congrArg x1 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl
  | ⟨3, _⟩ => rfl

theorem plane_d : val_main_v5 (F := Ideal) x1 (ix2 i j) = pd x1 i j := by
  rw [val_main_v5_apply, val_main_v4_apply]
  show x1 _ = x1 (ix4 i j (1 : Fin 2) (1 : Fin 2))
  refine congrArg x1 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl
  | ⟨3, _⟩ => rfl

theorem plane_px : val_main_v37 (F := Ideal) x0 (ix2 i j) = p0 x0 i j := by
  rw [val_main_v37_apply, val_main_v36_apply]
  show x0 _ = x0 (ix3 i j (0 : Fin 2))
  refine congrArg x0 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl

theorem plane_tx : val_main_v39 (F := Ideal) x2 (ix2 i j) = p0 x2 i j := by
  rw [val_main_v39_apply, val_main_v38_apply]
  show x2 _ = x2 (ix3 i j (0 : Fin 2))
  refine congrArg x2 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl

theorem plane_py : val_main_v42 (F := Ideal) x0 (ix2 i j) = p1 x0 i j := by
  rw [val_main_v42_apply, val_main_v41_apply]
  show x0 _ = x0 (ix3 i j (1 : Fin 2))
  refine congrArg x0 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl

theorem plane_ty : val_main_v44 (F := Ideal) x2 (ix2 i j) = p1 x2 i j := by
  rw [val_main_v44_apply, val_main_v43_apply]
  show x2 _ = x2 (ix3 i j (1 : Fin 2))
  refine congrArg x2 (funext fun e => ?_)
  match e with
  | ⟨0, _⟩ => exact Fin.ext (by show (i.val * 4096 + j.val) / 4096 = i.val; omega)
  | ⟨1, _⟩ => exact Fin.ext (by show (i.val * 4096 + j.val) / 1 % 4096 = j.val; omega)
  | ⟨2, _⟩ => rfl

/-! ## The broadcast constants -/

section Constants
variable (q : (⟨2, ![4096, 4096]⟩ : Shape).Idx)

theorem c_v7 : val_main_v7 (F := Ideal) q = wHalf := val_main_v7_apply q
theorem c_v10 : val_main_v10 (F := Ideal) q = wHalf := val_main_v10_apply q
theorem c_v19 : val_main_v19 (F := Ideal) q = wTiny := val_main_v19_apply q
theorem c_call0_v0 : val_main_call0_v0 (F := Ideal) q = wOne := val_main_call0_v0_apply q
theorem c_call0_v1 : val_main_call0_v1 (F := Ideal) q = wZero := val_main_call0_v1_apply q
theorem c_call2_v0 : val_main_call2_v0 (F := Ideal) q = wZero := val_main_call2_v0_apply q
theorem c_call2_v1 : val_main_call2_v1 (F := Ideal) q = wOne := val_main_call2_v1_apply q
theorem c_v32 : val_main_v32 (F := Ideal) q = wOne := val_main_v32_apply q
theorem c_v58 : val_main_v58 (F := Ideal) q = wOne := val_main_v58_apply q
theorem c_v60 : val_main_v60 (F := Ideal) q = wEps := val_main_v60_apply q
theorem c_v65 : val_main_v65 (F := Ideal) q = wOne := val_main_v65_apply q
theorem c_v67 : val_main_v67 (F := Ideal) q = wEps := val_main_v67_apply q
theorem c_v73 : val_main_v73 (F := Ideal) q = wHalf := val_main_v73_apply q

end Constants

/-! ## The eigenvalues -/

theorem st_mean : val_main_v8 (F := Ideal) x1 (ix2 i j) = mean (pa x1 i j) (pd x1 i j) := by
  rw [val_main_v8_apply, val_main_v6_apply, c_v7, plane_a, plane_d] <;> rfl

theorem st_delta : val_main_v15 (F := Ideal) x1 (ix2 i j) = delta (pa x1 i j) (pb x1 i j) (pd x1 i j) := by
  rw [val_main_v15_apply, val_main_v14_apply, val_main_v12_apply, val_main_v13_apply, val_main_v11_apply,
    val_main_v9_apply, c_v10, plane_a, plane_b, plane_d] <;> rfl

theorem st_lam1 : val_main_v16 (F := Ideal) x1 (ix2 i j) = lam1 (pa x1 i j) (pb x1 i j) (pd x1 i j) := by
  rw [val_main_v16_apply, st_mean, st_delta] <;> rfl

theorem st_lam2 : val_main_v17 (F := Ideal) x1 (ix2 i j) = lam2 (pa x1 i j) (pb x1 i j) (pd x1 i j) := by
  rw [val_main_v17_apply, st_mean, st_delta] <;> rfl

/-! ## The eigenvector of the larger eigenvalue -/

theorem st_diag : val_main_v20 (F := Ideal) x1 (ix2 i j) = diag (pb x1 i j) := by
  rw [val_main_v20_apply, val_main_v18_apply, plane_b, c_v19] <;> rfl

theorem st_ge : val_main_v21 (F := Ideal) x1 (ix2 i j) = ge (pa x1 i j) (pd x1 i j) := by
  rw [val_main_v21_apply, plane_a, plane_d] <;> rfl

theorem st_ge' : val_main_v24 (F := Ideal) x1 (ix2 i j) = ge (pa x1 i j) (pd x1 i j) := by
  rw [val_main_v24_apply, plane_a, plane_d] <;> rfl

theorem st_vx0 : val_main_v23 (F := Ideal) x1 (ix2 i j) = vx0 (pa x1 i j) (pb x1 i j) (pd x1 i j) := by
  rw [val_main_v23_apply, val_main_call1_v0_apply, val_main_v22_apply, st_diag, st_ge, c_call0_v0, c_call0_v1,
    plane_b] <;> rfl

theorem st_vy0 : val_main_v27 (F := Ideal) x1 (ix2 i j) = vy0 (pa x1 i j) (pb x1 i j) (pd x1 i j) := by
  rw [val_main_v27_apply, val_main_call3_v0_apply, val_main_v25_apply, val_main_v26_apply, st_diag, st_ge',
    c_call2_v0, c_call2_v1, st_lam1, plane_a] <;> rfl

theorem st_invn : val_main_v33 (F := Ideal) x1 (ix2 i j) = invn (pa x1 i j) (pb x1 i j) (pd x1 i j) := by
  rw [val_main_v33_apply, val_main_v31_apply, val_main_v30_apply, val_main_v28_apply, val_main_v29_apply, c_v32,
    st_vx0, st_vy0] <;> rfl

theorem st_vx : val_main_v34 (F := Ideal) x1 (ix2 i j) = vx (pa x1 i j) (pb x1 i j) (pd x1 i j) := by
  rw [val_main_v34_apply, st_vx0, st_invn] <;> rfl

theorem st_vy : val_main_v35 (F := Ideal) x1 (ix2 i j) = vy (pa x1 i j) (pb x1 i j) (pd x1 i j) := by
  rw [val_main_v35_apply, st_vy0, st_invn] <;> rfl

/-! ## The residual and its two projections -/

theorem st_dx : val_main_v40 (F := Ideal) x0 x2 (ix2 i j) = p0 x0 i j - p0 x2 i j := by
  rw [val_main_v40_apply, plane_px, plane_tx] <;> rfl

theorem st_dy : val_main_v45 (F := Ideal) x0 x2 (ix2 i j) = p1 x0 i j - p1 x2 i j := by
  rw [val_main_v45_apply, plane_py, plane_ty] <;> rfl

theorem st_r1 : val_main_v48 (F := Ideal) x0 x1 x2 (ix2 i j)
    = r1 (pa x1 i j) (pb x1 i j) (pd x1 i j) (p0 x0 i j) (p1 x0 i j) (p0 x2 i j) (p1 x2 i j) := by
  rw [val_main_v48_apply, val_main_v46_apply, val_main_v47_apply, st_vx, st_vy, st_dx, st_dy] <;> rfl

theorem st_sq1 : val_main_v49 (F := Ideal) x0 x1 x2 (ix2 i j) = sq1At x0 x1 x2 i j := by
  rw [val_main_v49_apply, st_r1] <;> rfl

theorem st_r2 : val_main_v54 (F := Ideal) x0 x1 x2 (ix2 i j)
    = r2 (pa x1 i j) (pb x1 i j) (pd x1 i j) (p0 x0 i j) (p1 x0 i j) (p0 x2 i j) (p1 x2 i j) := by
  rw [val_main_v54_apply, val_main_v52_apply, val_main_v53_apply, val_main_v51_apply, st_vx, st_vy, st_dx, st_dy] <;> rfl

theorem st_sq2 : val_main_v55 (F := Ideal) x0 x1 x2 (ix2 i j) = sq2At x0 x1 x2 i j := by
  rw [val_main_v55_apply, st_r2] <;> rfl

/-! ## The two residual totals -/

theorem st_d1 (q : (⟨0, ![]⟩ : Shape).Idx) : val_main_v50 (F := Ideal) x0 x1 x2 q
    = wZero + ∑ p : (⟨2, ![4096, 4096]⟩ : Shape).Idx, sq1At x0 x1 x2 (p 0) (p 1) := by
  have h : val_main_v49 (F := Ideal) x0 x1 x2 = fun p => sq1At x0 x1 x2 (p 0) (p 1) :=
    funext fun p => (congrArg (val_main_v49 (F := Ideal) x0 x1 x2) (eq_ix2 p)).trans (st_sq1 x0 x1 x2 (p 0) (p 1))
  rw [val_main_v50_apply, h] <;> rfl

theorem st_d2 (q : (⟨0, ![]⟩ : Shape).Idx) : val_main_v56 (F := Ideal) x0 x1 x2 q
    = wZero + ∑ p : (⟨2, ![4096, 4096]⟩ : Shape).Idx, sq2At x0 x1 x2 (p 0) (p 1) := by
  have h : val_main_v55 (F := Ideal) x0 x1 x2 = fun p => sq2At x0 x1 x2 (p 0) (p 1) :=
    funext fun p => (congrArg (val_main_v55 (F := Ideal) x0 x1 x2) (eq_ix2 p)).trans (st_sq2 x0 x1 x2 (p 0) (p 1))
  rw [val_main_v56_apply, h] <;> rfl

/-! ## One landmark's term of the mean -/

/-- the term of landmark (i, j): (1/√lam1 + ε)·d1 + (1/√lam2 + ε)·d2 + ½·(lam1 + lam2) -/
def term (x0 : Pts) (x1 : Cov) (x2 : Pts) (i j : Fin 4096) : EReal :=
  ((u1At x1 i j + wEps) * (wZero + ∑ p : (⟨2, ![4096, 4096]⟩ : Shape).Idx, sq1At x0 x1 x2 (p 0) (p 1))
    + (u2At x1 i j + wEps) * (wZero + ∑ p : (⟨2, ![4096, 4096]⟩ : Shape).Idx, sq2At x0 x1 x2 (p 0) (p 1)))
    + wHalf * trAt x1 i j

theorem st_w1 : val_main_v61 (F := Ideal) x1 (ix2 i j) = u1At x1 i j + wEps := by
  rw [val_main_v61_apply, val_main_v59_apply, val_main_v57_apply, c_v58, c_v60, st_lam1] <;> rfl

theorem st_w2 : val_main_v68 (F := Ideal) x1 (ix2 i j) = u2At x1 i j + wEps := by
  rw [val_main_v68_apply, val_main_v66_apply, val_main_v64_apply, c_v65, c_v67, st_lam2] <;> rfl

theorem st_tr : val_main_v74 (F := Ideal) x1 (ix2 i j) = wHalf * trAt x1 i j := by
  rw [val_main_v74_apply, val_main_v72_apply, c_v73, st_lam1, st_lam2] <;> rfl

theorem st_term : val_main_v75 (F := Ideal) x0 x1 x2 (ix2 i j) = term x0 x1 x2 i j := by
  rw [val_main_v75_apply, val_main_v71_apply, val_main_v63_apply, val_main_v70_apply, val_main_v62_apply,
    val_main_v69_apply, st_w1, st_w2, st_tr, st_d1, st_d2] <;> rfl

/-! ## The mean -/

theorem st_total (q : (⟨0, ![]⟩ : Shape).Idx) : val_main_v76 (F := Ideal) x0 x1 x2 q
    = wZero + ∑ p : (⟨2, ![4096, 4096]⟩ : Shape).Idx, term x0 x1 x2 (p 0) (p 1) := by
  have h : val_main_v75 (F := Ideal) x0 x1 x2 = fun p => term x0 x1 x2 (p 0) (p 1) :=
    funext fun p => (congrArg (val_main_v75 (F := Ideal) x0 x1 x2) (eq_ix2 p)).trans (st_term x0 x1 x2 (p 0) (p 1))
  rw [val_main_v76_apply, h] <;> rfl

/-- The reference program's result is the mean loss at its one index. -/
theorem ref_value (x0 : Pts) (x1 : Cov) (x2 : Pts) :
    Cert.ReferenceIdeal.ReadP.val_main_v77 (F := Ideal) x0 x1 x2 = fun _ => meanLoss x0 x1 x2 := by
  funext q
  rw [val_main_v77_apply, st_total] <;> rfl

end Cert.Proof.StarRef

end
-- ==== Proof.lean ====
/-
  Equivalence, over the extended reals, of a kernel and its reference computing a loss built on the eigen-decomposition
  of a symmetric 2×2 matrix per landmark, 4096 × 4096 landmarks.

  Per landmark (i, j), with [[a, b], [b, d]] the landmark's matrix: the eigenvalues lam1 ≥ lam2, a unit eigenvector of
  lam1, and the residual pred − target projected on it (r1) and on its normal (r2). The reference takes the two global
  totals d1 = Σ r1², d2 = Σ r2² and returns the mean over landmarks of
      (1/√lam1 + ε)·d1 + (1/√lam2 + ε)·d2 + ½·(lam1 + lam2).
  The kernel makes one pass: over an 8 × 8 grid of 512 × 512 tiles it accumulates five totals — D1 = Σ r1², D2 = Σ r2²,
  S1 = Σ 1/√lam1, S2 = Σ 1/√lam2, T = Σ (lam1 + lam2) — in five lanes of one row, and the host combines them as
      D1·(S1/n + ε) + D2·(S2/n + ε) + ½·(T/n),   n = 4096² = 2^24.

  Why the two agree on the extended reals, infinities included: the per-landmark quantities are the same operations in
  the same order on both sides; the tiles partition the landmarks, and sums in a commutative monoid do not see order
  or grouping; and although multiplication does not distribute over addition on the extended reals in general, it does
  in the two forms this identity needs — a sum of NON-NEGATIVE weights times any factor (every weight 1/√x is in [0, ⊤],
  ε ≥ 0), and a non-negative REAL factor (ε, ½, 1/n) times any sum. No finiteness of the inputs is used.

  The modules: StarSpec (the quantities and the two forms of the loss), StarAlgebra (the identity between the two forms),
  StarCases / StarAccum / StarTail (the kernel's run read back: one grid point, the accumulation, the host lines after
  the region), StarLanes / StarBlocks / StarSums (a point's contribution lane by lane, the input blocks as tiles of the
  arguments' planes, the tiles' partition), StarKernel (the kernel's value is the loss), RefValue (the reference's value
  is the mean form).
-/
import proofs.«144680_j20478404067923_1_alg».proof.Defs
import proofs.«144680_j20478404067923_1_alg».proof.Proof.Gen.Kernel
import proofs.«144680_j20478404067923_1_alg».proof.Proof.Gen.Kernel.Skeleton
import proofs.«144680_j20478404067923_1_alg».proof.Proof.Gen.Kernel.Launch
import proofs.«144680_j20478404067923_1_alg».proof.Proof.Gen.Kernel.Points
import proofs.«144680_j20478404067923_1_alg».proof.Proof.Gen.Kernel.Frame
import proofs.«144680_j20478404067923_1_alg».proof.Proof.Gen.KernelIdeal
import proofs.«144680_j20478404067923_1_alg».proof.Proof.Gen.KernelIdeal.Skeleton
import proofs.«144680_j20478404067923_1_alg».proof.Proof.Gen.KernelIdeal.Launch
import proofs.«144680_j20478404067923_1_alg».proof.Proof.Gen.KernelIdeal.Points
import proofs.«144680_j20478404067923_1_alg».proof.Proof.Gen.KernelIdeal.Frame
import proofs.«144680_j20478404067923_1_alg».proof.Proof.Gen.ReferenceIdeal
import proofs.«144680_j20478404067923_1_alg».proof.Proof.RefRunP
import proofs.«144680_j20478404067923_1_alg».proof.Proof.RefReadP
import proofs.«144680_j20478404067923_1_alg».proof.Proof.Gen.Pre_finite_inputs
import proofs.«144680_j20478404067923_1_alg».proof.Proof.StarKernel
import proofs.«144680_j20478404067923_1_alg».proof.Proof.RefValue
import proofs.«144680_j20478404067923_1_alg».proof.Proof.StarAlgebra
import Idealize.ShloMosaic.Adequacy
import Idealize.ShloMosaic.Init

noncomputable section

namespace Cert.Proof

open Idealize.ShloMosaic Idealize.SL.Sem

/-- The kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation of the kernel was rewritten for the reading on the extended reals. -/
theorem preserves : Cert.preserves_Kernel_KernelIdeal := trivial

/-- From memories agreeing on the three arguments the kernel ends at the loss in its five-totals form and the reference
    at the loss in its mean form, which are one extended real. -/
theorem algebraic : Cert.algebraic_KernelIdeal_ReferenceIdeal := by
  intro m ρ m' ρ' _ hagree
  refine ⟨fun c => Cert.KernelIdeal.StarValue.tailOf (Cert.KernelIdeal.StarValue.result m c),
    Cert.KernelIdeal.StarValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v77_eq, Cert.Proof.StarRef.ref_value, (hagree c).1, (hagree c).2.1, (hagree c).2.2,
    Cert.Proof.Star.meanLoss_eq_loss]
  exact (Cert.KernelIdeal.StarValue.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
